-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "inv_9216" .f32 0x38E38E39#32 ((1 / 9216 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x96x96 : Shape := ⟨4, ![16, 256, 96, 96]⟩
abbrev S1 : Shape := ⟨1, ![1]⟩
abbrev S32x256 : Shape := ⟨2, ![32, 256]⟩
abbrev S32 : Shape := ⟨1, ![32]⟩
abbrev S256x32 : Shape := ⟨2, ![256, 32]⟩
abbrev S256 : Shape := ⟨1, ![256]⟩
abbrev S_ : Shape := ⟨0, ![]⟩

class Facts : Prop where
  bcast_S_S16x256x96x96 : S_.BroadcastsInDim S16x256x96x96 (![] : Fin 0 → Fin S16x256x96x96.rank)
  reducesTo_S16x256x96x96_S_d0_1_2_3 : S16x256x96x96.ReducesTo [0, 1, 2, 3] S_
  h_S_ : 0 < S_.numel
  bcast_S_S1 : S_.BroadcastsInDim S1 (![] : Fin 0 → Fin S1.rank)
  reducesTo_S1_S_d0 : S1.ReducesTo [0] S_
  bcast_S_S32x256 : S_.BroadcastsInDim S32x256 (![] : Fin 0 → Fin S32x256.rank)
  reducesTo_S32x256_S_d0_1 : S32x256.ReducesTo [0, 1] S_
  bcast_S_S32 : S_.BroadcastsInDim S32 (![] : Fin 0 → Fin S32.rank)
  reducesTo_S32_S_d0 : S32.ReducesTo [0] S_
  bcast_S_S256x32 : S_.BroadcastsInDim S256x32 (![] : Fin 0 → Fin S256x32.rank)
  reducesTo_S256x32_S_d0_1 : S256x32.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256x32 .f32) (main_arg5 : FVec F S256 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S256x32 .f32 := Host.absf main_arg4
  let main_cst_6 : FVec F S_ .f32 := constant S_ .f32 0x7F800000#32
  let main_v20 : FVec F S256x32 .f32 := broadcastInDim S256x32 ![] bcast_S_S256x32 main_cst_6
  let main_v21 : IVec S256x32 1 := cmpf .olt main_v19 main_v20
  let main_c_7 : IVec S_ 1 := constantI S_ 1 1#1
  let main_v22 : IVec S_ 1 := (fun x v => Host.reduce IntOp.andi x v reducesTo_S256x32_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S16x256x96x96 .f32) (main_arg1 : FVec F S1 .f32) (main_arg2 : FVec F S32x256 .f32) (main_arg3 : FVec F S32 .f32) (main_arg4 : FVec F S256x32 .f32) (main_arg5 : FVec F S256 .f32) : IVec S_ 1 :=
  let main_v0 : FVec F S16x256x96x96 .f32 := Host.absf main_arg0
  let main_cst : FVec F S_ .f32 := constant S_ .f32 0x7F800000#32
  let main_v1 : FVec F S16x256x96x96 .f32 := broadcastInDim S16x256x96x96 ![] bcast_S_S16x256x96x96 main_cst
  let main_v2 : IVec S16x256x96x96 1 := cmpf .olt main_v0 main_v1
  let main_c : IVec S_ 1 := constantI S_ 1 1#1
  let main_v3 : IVec S_ 1 := (fun x v => Host.reduce IntOp.andi x v reducesTo_S16x256x96x96_S_d0_1_2_3 h_S_) main_v2 main_c
  let main_v4 : FVec F S1 .f32 := Host.absf main_arg1
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S32x256 .f32 := Host.absf main_arg2
  let main_cst_2 : FVec F S_ .f32 := constant S_ .f32 0x7F800000#32
  let main_v10 : FVec F S32x256 .f32 := broadcastInDim S32x256 ![] bcast_S_S32x256 main_cst_2
  let main_v11 : IVec S32x256 1 := cmpf .olt main_v9 main_v10
  let main_c_3 : IVec S_ 1 := constantI S_ 1 1#1
  let main_v12 : IVec S_ 1 := (fun x v => Host.reduce IntOp.andi x v reducesTo_S32x256_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_v13 main_v16
-- ==== Kernel.lean ====
abbrev S16x256x96x96 : Shape := ⟨4, ![16, 256, 96, 96]⟩
abbrev S1 : Shape := ⟨1, ![1]⟩
abbrev S32x256 : Shape := ⟨2, ![32, 256]⟩
abbrev S32 : Shape := ⟨1, ![32]⟩
abbrev S256x32 : Shape := ⟨2, ![256, 32]⟩
abbrev S256 : Shape := ⟨1, ![256]⟩
abbrev S16x256x9216 : Shape := ⟨3, ![16, 256, 9216]⟩
abbrev S1x1 : Shape := ⟨2, ![1, 1]⟩
abbrev S32x1 : Shape := ⟨2, ![32, 1]⟩
abbrev S256x1 : Shape := ⟨2, ![256, 1]⟩
abbrev S1x256x9216 : Shape := ⟨3, ![1, 256, 9216]⟩
abbrev S256x256 : Shape := ⟨2, ![256, 256]⟩
abbrev S1x256x1024 : Shape := ⟨3, ![1, 256, 1024]⟩
abbrev S256x1024 : Shape := ⟨2, ![256, 1024]⟩

abbrev nBuf : Space → Nat
  | .hbm => 12
  | .vmem => 10
  | .smem => 0
  | _ => 0

abbrev bufTy : (tb : Table) → Fin (tcTables nBuf tb) → BufTy
  | .hbm, ⟨0, _⟩ => ⟨S16x256x96x96, .f32⟩
  | .hbm, ⟨1, _⟩ => ⟨S1, .f32⟩
  | .hbm, ⟨2, _⟩ => ⟨S32x256, .f32⟩
  | .hbm, ⟨3, _⟩ => ⟨S32, .f32⟩
  | .hbm, ⟨4, _⟩ => ⟨S256x32, .f32⟩
  | .hbm, ⟨5, _⟩ => ⟨S256, .f32⟩
  | .hbm, ⟨6, _⟩ => ⟨S16x256x9216, .f32⟩
  | .hbm, ⟨7, _⟩ => ⟨S1x1, .f32⟩
  | .hbm, ⟨8, _⟩ => ⟨S32x1, .f32⟩
  | .hbm, ⟨9, _⟩ => ⟨S256x1, .f32⟩
  | .hbm, ⟨10, _⟩ => ⟨S16x256x9216, .f32⟩
  | .hbm, ⟨11, _⟩ => ⟨S16x256x96x96, .f32⟩
  | .local _ .vmem, ⟨0, _⟩ => ⟨S1x1, .f32⟩
  | .local _ .vmem, ⟨1, _⟩ => ⟨S32x256, .f32⟩
  | .local _ .vmem, ⟨2, _⟩ => ⟨S32x1, .f32⟩
  | .local _ .vmem, ⟨3, _⟩ => ⟨S256x32, .f32⟩
  | .local _ .vmem, ⟨4, _⟩ => ⟨S256x1, .f32⟩
  | .local _ .vmem, ⟨5, _⟩ => ⟨S1x256x9216, .f32⟩
  | .local _ .vmem, ⟨6, _⟩ => ⟨S1x256x9216, .f32⟩
  | .local _ .vmem, ⟨7, _⟩ => ⟨S1x256x9216, .f32⟩
  | .local _ .vmem, ⟨8, _⟩ => ⟨S1x256x9216, .f32⟩
  | .local _ .vmem, ⟨9, _⟩ => ⟨S256x256, .f32⟩
  | _, _ => ⟨S16x256x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c9_i32 : BitVec 32 := 9#32
  let v5 : BitVec 32 := Scalar.addi c0_i32 c9_i32
  let c1_i32 : BitVec 32 := 1#32
  ⟨c0_i32, v5, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c1024_i32 : BitVec 32 := 1024#32
  let v42 : BitVec 32 := Scalar.muli arg9 c1024_i32
  v42
def k0_off1 (k0_t1 : Fin k0_t1_loop.trips) : Fin 3 → Nat :=
  let c0_27 : Index := 0#32
  let c0_28 : Index := 0#32
  let c0_i32 : BitVec 32 := 0#32
  let c1_i32 : BitVec 32 := 1#32
  let arg9 : BitVec 32 := Scf.iv c0_i32 c1_i32 k0_t1
  let c1024_i32 : BitVec 32 := 1024#32
  let v42 : BitVec 32 := Scalar.muli arg9 c1024_i32
  let v43 : BitVec 32 := v42
  let v44 : Index := Scalar.indexCast v43
  ![0, 0, v44.toNat]
@[reducible] def k0_t2_loop : Scf.Loop 32 :=
  let c0_i32_23 : BitVec 32 := 0#32
  let c9_i32_24 : BitVec 32 := 9#32
  let v41 : BitVec 32 := Scalar.addi c0_i32_23 c9_i32_24
  let c1_i32_25 : BitVec 32 := 1#32
  ⟨c0_i32_23, v41, c1_i32_25⟩
def k0_mult2 (k0_t2 : Fin k0_t2_loop.trips) : BitVec 32 :=
  let c0_i32_23 : BitVec 32 := 0#32
  let c1_i32_25 : BitVec 32 := 1#32
  let arg9 : BitVec 32 := Scf.iv c0_i32_23 c1_i32_25 k0_t2
  let c1024_i32 : BitVec 32 := 1024#32
  let v42 : BitVec 32 := Scalar.muli arg9 c1024_i32
  v42
def k0_off2 (k0_t2 : Fin k0_t2_loop.trips) : Fin 3 → Nat :=
  let c0_27 : Index := 0#32
  let c0_28 : Index := 0#32
  let c0_i32_23 : BitVec 32 := 0#32
  let c1_i32_25 : BitVec 32 := 1#32
  let arg9 : BitVec 32 := Scf.iv c0_i32_23 c1_i32_25 k0_t2
  let c1024_i32 : BitVec 32 := 1024#32
  let v42 : BitVec 32 := Scalar.muli arg9 c1024_i32
  let v43 : BitVec 32 := v42
  let v44 : Index := Scalar.indexCast v43
  ![0, 0, v44.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x9216 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x9216 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S16x256x96x96_S16x256x9216 : S16x256x96x96.ShapeCasts S16x256x9216
  shapeCasts_S1_S1x1 : S1.ShapeCasts S1x1
  shapeCasts_S32_S32x1 : S32.ShapeCasts S32x1
  shapeCasts_S256_S256x1 : S256.ShapeCasts S256x1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  h_S1x256x1024 : 0 < S1x256x1024.numel
  shapeCasts_S1x256x1024_S256x1024 : S1x256x1024.ShapeCasts S256x1024
  reduces_S256x1024_S256 : S256x1024.Reduces [1] S256
  reduces_S256x256_S256 : S256x256.Reduces [1] S256
  broadcasts_S256x1_S256x256 : S256x1.Broadcasts S256x256
  bitsLt_bf16_f32 : FTy.bits .bf16 < FTy.bits .f32
  inb_S32x256_S32x256_0_0 : ∀ a, (![0, 0] : Fin 2 → Nat) a + S32x256.size a ≤ S32x256.size a
  h_S32x256 : 0 < S32x256.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S256x32_S256x32_0_0 : ∀ a, (![0, 0] : Fin 2 → Nat) a + S256x32.size a ≤ S256x32.size a
  h_S256x32 : 0 < S256x32.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S256x1_S256x1024 : S256x1.Broadcasts S256x1024
  broadcasts_S1x1_S256x1024 : S1x1.Broadcasts S256x1024
  shapeCasts_S256x1024_S1x256x1024 : S256x1024.ShapeCasts S1x256x1024
  shapeCasts_S16x256x9216_S16x256x96x96 : S16x256x9216.ShapeCasts S16x256x96x96
  dot_S256x1024_S256x1024_S256x256_1_1_0_0_n_n_wf : DotDims.WF S256x1024 S256x1024 S256x256 [1] [1] [0] [0] [] []
  dot_S32x256_S256x1_S32x1_1_0_0_1_n_n_wf : DotDims.WF S32x256 S256x1 S32x1 [1] [0] [0] [1] [] []
  dot_S256x32_S32x1_S256x1_1_0_0_1_n_n_wf : DotDims.WF S256x32 S32x1 S256x1 [1] [0] [0] [1] [] []
  dot_S256x256_S256x1024_S256x1024_1_0_0_1_n_n_wf : DotDims.WF S256x256 S256x1024 S256x1024 [1] [0] [0] [1] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1x256x1024.size a ≤ S1x256x9216.size a
  k0_t2_ok : k0_t2_loop.OK
  k0_mult2_dvd : ∀ k0_t2 : Fin k0_t2_loop.trips, 1024 ∣ (k0_mult2 k0_t2).toNat
  k0_off2_inb : ∀ k0_t2 : Fin k0_t2_loop.trips, ∀ a, (k0_off2 k0_t2) a + S1x256x1024.size a ≤ S1x256x9216.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1.size a ≤ S1x1.size a
  hwx0_0 : ∀ i : grid0.Coords, EltTy.bits .f32 = 32 ∨ (Rect.block (s := S1x1) S1x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S32x256.size a
  hwx0_1 : ∀ i : grid0.Coords, EltTy.bits .f32 = 32 ∨ (Rect.block (s := S32x256) S32x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S32x1.size a
  hwx0_2 : ∀ i : grid0.Coords, EltTy.bits .f32 = 32 ∨ (Rect.block (s := S32x1) S32x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x32.size a ≤ S256x32.size a
  hwx0_3 : ∀ i : grid0.Coords, EltTy.bits .f32 = 32 ∨ (Rect.block (s := S256x32) S256x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S256x1.size a
  hwx0_4 : ∀ i : grid0.Coords, EltTy.bits .f32 = 32 ∨ (Rect.block (s := S256x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x9216.size a ≤ S16x256x9216.size a
  hwx0_5 : ∀ i : grid0.Coords, EltTy.bits .f32 = 32 ∨ (Rect.block (s := S16x256x9216) S1x256x9216.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x9216.size a ≤ S16x256x9216.size a
  hwx0_6 : ∀ i : grid0.Coords, EltTy.bits .f32 = 32 ∨ (Rect.block (s := S16x256x9216) S1x256x9216.size (cc0_transform_6 i) (hinb0_6 i)).WholeWords (EltTy.packing .f32)

variable [Facts₀]

def dot_S256x1024_S256x1024_S256x256_1_1_0_0_n_n : DotDims S256x1024 S256x1024 S256x256 where
  lhsContracting := [1]
  rhsContracting := [1]
  lhsNonContracting := [0]
  rhsNonContracting := [0]
  lhsBatch := []
  rhsBatch := []
  wf := dot_S256x1024_S256x1024_S256x256_1_1_0_0_n_n_wf
def dot_S32x256_S256x1_S32x1_1_0_0_1_n_n : DotDims S32x256 S256x1 S32x1 where
  lhsContracting := [1]
  rhsContracting := [0]
  lhsNonContracting := [0]
  rhsNonContracting := [1]
  lhsBatch := []
  rhsBatch := []
  wf := dot_S32x256_S256x1_S32x1_1_0_0_1_n_n_wf
def dot_S256x32_S32x1_S256x1_1_0_0_1_n_n : DotDims S256x32 S32x1 S256x1 where
  lhsContracting := [1]
  rhsContracting := [0]
  lhsNonContracting := [0]
  rhsNonContracting := [1]
  lhsBatch := []
  rhsBatch := []
  wf := dot_S256x32_S32x1_S256x1_1_0_0_1_n_n_wf
def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf

abbrev win0_0 : Pipeline.Window sig grid0 :=
  Pipeline.Window.ofSpec (Memref.whole main_v1) S1x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x256x9216.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x256x9216.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x256x96x96 : Shape := ⟨4, ![16, 256, 96, 96]⟩
abbrev S1 : Shape := ⟨1, ![1]⟩
abbrev S32x256 : Shape := ⟨2, ![32, 256]⟩
abbrev S32 : Shape := ⟨1, ![32]⟩
abbrev S256x32 : Shape := ⟨2, ![256, 32]⟩
abbrev S256 : Shape := ⟨1, ![256]⟩
abbrev S16x256x9216 : Shape := ⟨3, ![16, 256, 9216]⟩
abbrev S16x256x256 : Shape := ⟨3, ![16, 256, 256]⟩
abbrev S_ : Shape := ⟨0, ![]⟩
abbrev S16x256 : Shape := ⟨2, ![16, 256]⟩
abbrev S16x256x1 : Shape := ⟨3, ![16, 256, 1]⟩
abbrev S16x32 : Shape := ⟨2, ![16, 32]⟩
abbrev S1x32 : Shape := ⟨2, ![1, 32]⟩
abbrev S1x256 : Shape := ⟨2, ![1, 256]⟩
abbrev S16x256x1x1 : Shape := ⟨4, ![16, 256, 1, 1]⟩
abbrev S1x1x1x1 : Shape := ⟨4, ![1, 1, 1, 1]⟩

abbrev nBuf : Space → Nat
  | .hbm => 62
  | .vmem => 0
  | .smem => 0
  | _ => 0

abbrev bufTy : (tb : Table) → Fin (tcTables nBuf tb) → BufTy
  | .hbm, ⟨0, _⟩ => ⟨S16x256x96x96, .f32⟩
  | .hbm, ⟨1, _⟩ => ⟨S1, .f32⟩
  | .hbm, ⟨2, _⟩ => ⟨S32x256, .f32⟩
  | .hbm, ⟨3, _⟩ => ⟨S32, .f32⟩
  | .hbm, ⟨4, _⟩ => ⟨S256x32, .f32⟩
  | .hbm, ⟨5, _⟩ => ⟨S256, .f32⟩
  | .hbm, ⟨6, _⟩ => ⟨S16x256x9216, .f32⟩
  | .hbm, ⟨7, _⟩ => ⟨S16x256x256, .f32⟩
  | .hbm, ⟨8, _⟩ => ⟨S_, .f32⟩
  | .hbm, ⟨9, _⟩ => ⟨S16x256, .f32⟩
  | .hbm, ⟨10, _⟩ => ⟨S16x256x1, .f32⟩
  | .hbm, ⟨11, _⟩ => ⟨S16x256x256, .f32⟩
  | .hbm, ⟨12, _⟩ => ⟨S16x256x256, .f32⟩
  | .hbm, ⟨13, _⟩ => ⟨S_, .f32⟩
  | .hbm, ⟨14, _⟩ => ⟨S16x256, .f32⟩
  | .hbm, ⟨15, _⟩ => ⟨S_, .f32⟩
  | .hbm, ⟨16, _⟩ => ⟨S16x256, .f32⟩
  | .hbm, ⟨17, _⟩ => ⟨S16x256, .f32⟩
  | .hbm, ⟨18, _⟩ => ⟨S16x256x1, .f32⟩
  | .hbm, ⟨19, _⟩ => ⟨S16x256x256, .f32⟩
  | .hbm, ⟨20, _⟩ => ⟨S16x256x256, .f32⟩
  | .hbm, ⟨21, _⟩ => ⟨S16x256x256, .f32⟩
  | .hbm, ⟨22, _⟩ => ⟨S_, .f32⟩
  | .hbm, ⟨23, _⟩ => ⟨S16x256, .f32⟩
  | .hbm, ⟨24, _⟩ => ⟨S16x256x1, .f32⟩
  | .hbm, ⟨25, _⟩ => ⟨S16x256x256, .f32⟩
  | .hbm, ⟨26, _⟩ => ⟨S16x256x256, .f32⟩
  | .hbm, ⟨27, _⟩ => ⟨S16x256x9216, .f32⟩
  | .hbm, ⟨28, _⟩ => ⟨S16x256x96x96, .f32⟩
  | .hbm, ⟨29, _⟩ => ⟨S_, .f32⟩
  | .hbm, ⟨30, _⟩ => ⟨S16x256, .f32⟩
  | .hbm, ⟨31, _⟩ => ⟨S_, .f32⟩
  | .hbm, ⟨32, _⟩ => ⟨S16x256, .f32⟩
  | .hbm, ⟨33, _⟩ => ⟨S16x256, .f32⟩
  | .hbm, ⟨34, _⟩ => ⟨S256x32, .f32⟩
  | .hbm, ⟨35, _⟩ => ⟨S16x32, .f32⟩
  | .hbm, ⟨36, _⟩ => ⟨S1x32, .f32⟩
  | .hbm, ⟨37, _⟩ => ⟨S16x32, .f32⟩
  | .hbm, ⟨38, _⟩ => ⟨S16x32, .f32⟩
  | .hbm, ⟨39, _⟩ => ⟨S_, .f32⟩
  | .hbm, ⟨40, _⟩ => ⟨S16x32, .f32⟩
  | .hbm, ⟨41, _⟩ => ⟨S16x32, .f32⟩
  | .hbm, ⟨42, _⟩ => ⟨S32x256, .f32⟩
  | .hbm, ⟨43, _⟩ => ⟨S16x256, .f32⟩
  | .hbm, ⟨44, _⟩ => ⟨S1x256, .f32⟩
  | .hbm, ⟨45, _⟩ => ⟨S16x256, .f32⟩
  | .hbm, ⟨46, _⟩ => ⟨S16x256, .f32⟩
  | .hbm, ⟨47, _⟩ => ⟨S16x256, .f32⟩
  | .hbm, ⟨48, _⟩ => ⟨S16x256, .f32⟩
  | .hbm, ⟨49, _⟩ => ⟨S_, .f32⟩
  | .hbm, ⟨50, _⟩ => ⟨S16x256, .f32⟩
  | .hbm, ⟨51, _⟩ => ⟨S16x256, .f32⟩
  | .hbm, ⟨52, _⟩ => ⟨S_, .f32⟩
  | .hbm, ⟨53, _⟩ => ⟨S16x256, .f32⟩
  | .hbm, ⟨54, _⟩ => ⟨S16x256, .f32⟩
  | .hbm, ⟨55, _⟩ => ⟨S16x256x1x1, .f32⟩
  | .hbm, ⟨56, _⟩ => ⟨S16x256x96x96, .f32⟩
  | .hbm, ⟨57, _⟩ => ⟨S16x256x96x96, .f32⟩
  | .hbm, ⟨58, _⟩ => ⟨S1x1x1x1, .f32⟩
  | .hbm, ⟨59, _⟩ => ⟨S16x256x96x96, .f32⟩
  | .hbm, ⟨60, _⟩ => ⟨S16x256x96x96, .f32⟩
  | .hbm, ⟨61, _⟩ => ⟨S16x256x96x96, .f32⟩
  | _, _ => ⟨S16x256x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_cst : Ref sig .tc := ⟨.hbm, 39, rfl⟩
abbrev main_call0_v0 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]

class Facts₀ : Prop where
  shapeCasts_S16x256x96x96_S16x256x9216 : S16x256x96x96.ShapeCasts S16x256x9216
  reducesTo_S16x256x256_S16x256_d2 : S16x256x256.ReducesTo [2] S16x256
  h_S_ : 0 < S_.numel
  bcast_S16x256_S16x256x1_0_1 : S16x256.BroadcastsInDim S16x256x1 (![0, 1] : Fin 2 → Fin S16x256x1.rank)
  bcast_S16x256x1_S16x256x256_0_1_2 : S16x256x1.BroadcastsInDim S16x256x256 (![0, 1, 2] : Fin 3 → Fin S16x256x256.rank)
  bcast_S_S16x256 : S_.BroadcastsInDim S16x256 (![] : Fin 0 → Fin S16x256.rank)
  shapeCasts_S16x256x9216_S16x256x96x96 : S16x256x9216.ShapeCasts S16x256x96x96
  reducesTo_S16x256x96x96_S16x256_d2_3 : S16x256x96x96.ReducesTo [2, 3] S16x256
  transposes_S32x256_S256x32_1_0 : S32x256.Transposes [1, 0] S256x32
  bcast_S32_S1x32_1 : S32.BroadcastsInDim S1x32 (![1] : Fin 1 → Fin S1x32.rank)
  bcast_S1x32_S16x32_0_1 : S1x32.BroadcastsInDim S16x32 (![0, 1] : Fin 2 → Fin S16x32.rank)
  bcast_S_S16x32 : S_.BroadcastsInDim S16x32 (![] : Fin 0 → Fin S16x32.rank)
  transposes_S256x32_S32x256_1_0 : S256x32.Transposes [1, 0] S32x256
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  bcast_S16x256_S16x256x1x1_0_1 : S16x256.BroadcastsInDim S16x256x1x1 (![0, 1] : Fin 2 → Fin S16x256x1x1.rank)
  bcast_S16x256x1x1_S16x256x96x96_0_1_2_3 : S16x256x1x1.BroadcastsInDim S16x256x96x96 (![0, 1, 2, 3] : Fin 4 → Fin S16x256x96x96.rank)
  bcast_S1_S1x1x1x1_3 : S1.BroadcastsInDim S1x1x1x1 (![3] : Fin 1 → Fin S1x1x1x1.rank)
  bcast_S1x1x1x1_S16x256x96x96_0_1_2_3 : S1x1x1x1.BroadcastsInDim S16x256x96x96 (![0, 1, 2, 3] : Fin 4 → Fin S16x256x96x96.rank)
  dot_S16x256x9216_S16x256x9216_S16x256x256_2_2_1_1_0_0_wf : DotDims.WF S16x256x9216 S16x256x9216 S16x256x256 [2] [2] [1] [1] [0] [0]
  dot_S16x256x256_S16x256x9216_S16x256x9216_2_1_1_2_0_0_wf : DotDims.WF S16x256x256 S16x256x9216 S16x256x9216 [2] [1] [1] [2] [0] [0]
  dot_S16x256_S256x32_S16x32_1_0_0_1_n_n_wf : DotDims.WF S16x256 S256x32 S16x32 [1] [0] [0] [1] [] []
  dot_S16x32_S32x256_S16x256_1_0_0_1_n_n_wf : DotDims.WF S16x32 S32x256 S16x256 [1] [0] [0] [1] [] []

variable [Facts₀]

def dot_S16x256x9216_S16x256x9216_S16x256x256_2_2_1_1_0_0 : DotDims S16x256x9216 S16x256x9216 S16x256x256 where
  lhsContracting := [2]
  rhsContracting := [2]
  lhsNonContracting := [1]
  rhsNonContracting := [1]
  lhsBatch := [0]
  rhsBatch := [0]
  wf := dot_S16x256x9216_S16x256x9216_S16x256x256_2_2_1_1_0_0_wf
def dot_S16x256x256_S16x256x9216_S16x256x9216_2_1_1_2_0_0 : DotDims S16x256x256 S16x256x9216 S16x256x9216 where
  lhsContracting := [2]
  rhsContracting := [1]
  lhsNonContracting := [1]
  rhsNonContracting := [2]
  lhsBatch := [0]
  rhsBatch := [0]
  wf := dot_S16x256x256_S16x256x9216_S16x256x9216_2_1_1_2_0_0_wf
def dot_S16x256_S256x32_S16x32_1_0_0_1_n_n : DotDims S16x256 S256x32 S16x32 where
  lhsContracting := [1]
  rhsContracting := [0]
  lhsNonContracting := [0]
  rhsNonContracting := [1]
  lhsBatch := []
  rhsBatch := []
  wf := dot_S16x256_S256x32_S16x32_1_0_0_1_n_n_wf
def dot_S16x32_S32x256_S16x256_1_0_0_1_n_n : DotDims S16x32 S32x256 S16x256 where
  lhsContracting := [1]
  rhsContracting := [0]
  lhsNonContracting := [0]
  rhsNonContracting := [1]
  lhsBatch := []
  rhsBatch := []
  wf := dot_S16x32_S32x256_S16x256_1_0_0_1_n_n_wf

class Facts : Prop extends Facts₀ where

variable [Facts]
-- ==== Proof.Trips.lean ====
/-
  The two counted loops of the body, opened.

  Loop 1 walks the nine chunks x[:, 1024k .. 1024k+1023] of the block. Before trip k the register holds the
  partial row sums and the scratch holds the partial Gram matrix; trip k adds chunk k's row sums and chunk k's
  Gram matrix. `acc` below is that state as a plain recursion over the body's payloads.
  Loop 2 stores, at trip k, the output's columns 1024k .. 1024k+1023 computed from chunk k.
-/
import proofs.«174097_j71330816852397_2_alg».proof.Proof.Gen.KernelIdeal.Frame
import Idealize.ShloMosaic.Lib.Pipeline.Value

set_option maxRecDepth 16384

noncomputable section

namespace Cert.KernelIdeal.CamSe

open Idealize.ShloMosaic Idealize.ShloMosaic.TcCoe
open Idealize.SL.Sem
open Cert.KernelIdeal Cert.KernelIdeal.Gen

variable {F : FTy → Type} [FloatOps F] [Named F]

/-- The two-axis zero offset, however it is spelt. -/
theorem hz2 : (![0, 0] : Fin 2 → ℕ) = fun _ => 0 := by
  funext a; fin_cases a <;> rfl

/-- A store through the whole-shape rectangle, last in a list of stores, is what a read of the buffer returns. -/
theorem read_writes_cons_whole {Val : EltTy → Type} {sig : RefSig} {κ : Kind} {sp : Space} {S : Shape} {e : EltTy}
    (v : View sig κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-- Chunk `k` of the block: columns 1024k .. 1024k+1023 of every row. -/
def chunk (x5 : Vec F S1x256x9216 .f32) (k : Fin k0_t1_loop.trips) : Vec F S1x256x1024 .f32 :=
  View.ld x5 (Rect.unit (s := S1x256x9216) (k0_off1 k) S1x256x1024.size (k0_off1_inb k))

/-- The same chunk, as the second loop addresses it. -/
def chunk' (x5 : Vec F S1x256x9216 .f32) (k : Fin k0_t2_loop.trips) : Vec F S1x256x1024 .f32 :=
  View.ld x5 (Rect.unit (s := S1x256x9216) (k0_off2 k) S1x256x1024.size (k0_off2_inb k))

/-- The register (row sums so far) and the scratch (Gram matrix so far) before trip `k` of loop 1. -/
def acc (x5 : Vec F S1x256x9216 .f32) : ℕ → FVec F S256x1 .f32 × FVec F S256x256 .f32
  | 0 => (k0_pay3, k0_pay2)
  | k + 1 => if h : k < k0_t1_loop.trips then
      (k0_pay6 (acc x5 k).1 (chunk x5 ⟨k, h⟩), k0_pay5 (chunk x5 ⟨k, h⟩) (acc x5 k).2)
    else acc x5 k

section
variable (𝒱 : Variants) (c : Dev nD) (bd : Option 𝒱.V) (i : grid0.Coords) (arg1 : Memref sig .tc .vmem S1x1 .f32) (harg1 : arg1.IsWhole) (arg2 : Memref sig .tc .vmem S32x256 .f32) (harg2 : arg2.IsWhole) (arg3 : Memref sig .tc .vmem S32x1 .f32) (harg3 : arg3.IsWhole) (arg4 : Memref sig .tc .vmem S256x32 .f32) (harg4 : arg4.IsWhole) (arg5 : Memref sig .tc .vmem S256x1 .f32) (harg5 : arg5.IsWhole) (arg6 : Memref sig .tc .vmem S1x256x9216 .f32) (harg6 : arg6.IsWhole) (arg7 : Memref sig .tc .vmem S1x256x9216 .f32) (harg7 : arg7.IsWhole) (arg8 : Memref sig .tc .vmem S256x256 .f32) (harg8 : arg8.IsWhole)

/-- What trip `k` of loop 1 yields: the carried row sums plus chunk `k`'s. -/
theorem tripR1 (X6 : BufTy.Contents (Elt F) arg6.view.ty) (k : Fin k0_t1_loop.trips) (a : FVec F S256x1 .f32)
    (f8 : BufTy.Contents (Elt F) arg8.view.ty) :
    tripR_k0_t1 (F := F) 𝒱 c bd i arg1 harg1 arg2 harg2 arg3 harg3 arg4 harg4 arg5 harg5 arg6 harg6 arg7 harg7 arg8 harg8 X6 k a f8
      = k0_pay6 a (View.readAt (Elt F) arg6.view (Rect.unit (s := S1x256x9216) (k0_off1 k) S1x256x1024.size (k0_off1_inb k)).toLoadRect X6) := by
  unfold tripR_k0_t1 trip_k0_t1; rfl

/-- What trip `k` of loop 1 stores: the whole scratch, at what it held plus chunk `k`'s Gram matrix. -/
theorem tripL1 (X6 : BufTy.Contents (Elt F) arg6.view.ty) (k : Fin k0_t1_loop.trips) (a : FVec F S256x1 .f32)
    (f8 : BufTy.Contents (Elt F) arg8.view.ty) :
    tripL_k0_t1 (F := F) 𝒱 c bd i arg1 harg1 arg2 harg2 arg3 harg3 arg4 harg4 arg5 harg5 arg6 harg6 arg7 harg7 arg8 harg8 X6 k a f8
      = [(⟨Rect.unit (s := S256x256) ![0, 0] S256x256.size inb_S256x256_S256x256_0_0,
          k0_pay5 (View.readAt (Elt F) arg6.view (Rect.unit (s := S1x256x9216) (k0_off1 k) S1x256x1024.size (k0_off1_inb k)).toLoadRect X6)
            (View.readAt (Elt F) arg8.view (Rect.unit (s := S256x256) ![0, 0] S256x256.size inb_S256x256_S256x256_0_0).toLoadRect f8)⟩ :
          View.Piece (Elt F) S256x256 .f32)] := by
  unfold tripL_k0_t1 trip_k0_t1; rfl

/-- What trip `k` of loop 2 stores: columns 1024k .. of the output, computed from chunk `k`. -/
theorem tripL2 (v23 : FVec F S256x256 .bf16) (v32 : FVec F S32x1 .f32) (v33 : Vec F S256x32 .f32) (cst_18 : FVec F S256x1 .f32)
    (v35 : Vec F S256x1 .f32) (v39 : Vec F S1x1 .f32) (X6 : BufTy.Contents (Elt F) arg6.view.ty) (k : Fin k0_t2_loop.trips) :
    tripL_k0_t2 (F := F) 𝒱 c bd i arg1 harg1 arg2 harg2 arg3 harg3 arg4 harg4 arg5 harg5 arg6 harg6 arg7 harg7 arg8 harg8 v23 v32 v33 cst_18 v35 v39 X6 k
      = [(⟨Rect.unit (s := S1x256x9216) (k0_off2 k) S1x256x1024.size (k0_off2_inb k),
          k0_pay1 v23 v32 v33 cst_18 v35 v39
            (View.readAt (Elt F) arg6.view (Rect.unit (s := S1x256x9216) (k0_off2 k) S1x256x1024.size (k0_off2_inb k)).toLoadRect X6)⟩ :
          View.Piece (Elt F) S1x256x9216 .f32)] := by
  unfold tripL_k0_t2 trip_k0_t2; rfl

/-- A chunk read through the whole staging buffer is the chunk of its contents. -/
theorem readAt_chunk (x5 : Vec F S1x256x9216 .f32) (k : Fin k0_t1_loop.trips) :
    View.readAt (Elt F) arg6.view (Rect.unit (s := S1x256x9216) (k0_off1 k) S1x256x1024.size (k0_off1_inb k)).toLoadRect (harg6.unread x5)
      = chunk x5 k := by
  unfold chunk; rw [View.readAt_eq_ld, harg6.read_unread]

theorem readAt_chunk' (x5 : Vec F S1x256x9216 .f32) (k : Fin k0_t2_loop.trips) :
    View.readAt (Elt F) arg6.view (Rect.unit (s := S1x256x9216) (k0_off2 k) S1x256x1024.size (k0_off2_inb k)).toLoadRect (harg6.unread x5)
      = chunk' x5 k := by
  unfold chunk'; rw [View.readAt_eq_ld, harg6.read_unread]

/-- The scratch read whole, when the last store was of the whole scratch, is that store's value. -/
theorem readAt_whole_cons (f8 : BufTy.Contents (Elt F) arg8.view.ty) (w : FVec F S256x256 .f32)
    (L : List (View.Piece (Elt F) S256x256 .f32)) :
    View.readAt (Elt F) arg8.view (Rect.unit (s := S256x256) ![0, 0] S256x256.size inb_S256x256_S256x256_0_0).toLoadRect
        (arg8.view.writes (Elt F) f8 ((⟨Rect.unit (s := S256x256) ![0, 0] S256x256.size inb_S256x256_S256x256_0_0, w⟩ : View.Piece (Elt F) S256x256 .f32) :: L))
      = w := by
  rw [View.readAt_eq_ld, read_writes_cons_whole _ _ hz2, View.ld_unit_zero hz2]

/-- The generated state of loop 1 before trip `k` — the carried value, and the scratch as its stores leave it over a
    zero fill — is `acc`. -/
theorem st_eq_acc (x5 : Vec F S1x256x9216 .f32) (f0 : BufTy.Contents (Elt F) arg8.view.ty) (k : ℕ) :
    (st_k0_t1 (F := F) 𝒱 c bd i arg1 harg1 arg2 harg2 arg3 harg3 arg4 harg4 arg5 harg5 arg6 harg6 arg7 harg7 arg8 harg8 (harg6.unread x5)
        (arg8.view.writes (Elt F) f0 [⟨Rect.unit (s := S256x256) ![0, 0] S256x256.size inb_S256x256_S256x256_0_0, k0_pay2⟩]) k0_pay3 k).1 = (acc x5 k).1
    ∧ View.readAt (Elt F) arg8.view (Rect.unit (s := S256x256) ![0, 0] S256x256.size inb_S256x256_S256x256_0_0).toLoadRect
        (arg8.view.writes (Elt F) (arg8.view.writes (Elt F) f0 [⟨Rect.unit (s := S256x256) ![0, 0] S256x256.size inb_S256x256_S256x256_0_0, k0_pay2⟩])
          (st_k0_t1 (F := F) 𝒱 c bd i arg1 harg1 arg2 harg2 arg3 harg3 arg4 harg4 arg5 harg5 arg6 harg6 arg7 harg7 arg8 harg8 (harg6.unread x5)
            (arg8.view.writes (Elt F) f0 [⟨Rect.unit (s := S256x256) ![0, 0] S256x256.size inb_S256x256_S256x256_0_0, k0_pay2⟩]) k0_pay3 k).2)
      = (acc x5 k).2 := by
  induction k with
  | zero =>
    refine ⟨rfl, ?_⟩
    exact readAt_whole_cons arg8 f0 k0_pay2 []
  | succ k ih =>
    by_cases h : k < k0_t1_loop.trips
    · have hs := st_k0_t1_succ (F := F) 𝒱 c bd i arg1 harg1 arg2 harg2 arg3 harg3 arg4 harg4 arg5 harg5 arg6 harg6 arg7 harg7 arg8 harg8 (harg6.unread x5)
        (arg8.view.writes (Elt F) f0 [⟨Rect.unit (s := S256x256) ![0, 0] S256x256.size inb_S256x256_S256x256_0_0, k0_pay2⟩]) k0_pay3 ⟨k, h⟩
      simp only [] at hs
      rw [hs, acc, dif_pos h]
      constructor
      · show tripR_k0_t1 (F := F) 𝒱 c bd i arg1 harg1 arg2 harg2 arg3 harg3 arg4 harg4 arg5 harg5 arg6 harg6 arg7 harg7 arg8 harg8 _ _ _ _ = _
        rw [tripR1, readAt_chunk, ih.1]
      · show View.readAt (Elt F) arg8.view _ (arg8.view.writes (Elt F) _ (tripL_k0_t1 (F := F) 𝒱 c bd i arg1 harg1 arg2 harg2 arg3 harg3 arg4 harg4 arg5 harg5 arg6 harg6 arg7 harg7 arg8 harg8 _ _ _ _ ++ _)) = _
        rw [tripL1, List.singleton_append, readAt_whole_cons, readAt_chunk, ih.2]
    · rw [st_k0_t1.eq_2]; unfold st_k0_t1Step; rw [dif_neg h, acc, dif_neg h]
      exact ih

end

end Cert.KernelIdeal.CamSe

end
-- ==== Proof.Pieces.lean ====
/-
  The output block as the run leaves it: nine stores, store k holding columns 1024k .. 1024k+1023 computed by the
  body's last payload from the attention matrix (of the finished Gram matrix), the hidden vector (of the finished
  row sums) and chunk k.
-/
import proofs.«174097_j71330816852397_2_alg».proof.Proof.Trips

set_option maxRecDepth 16384

noncomputable section

namespace Cert.KernelIdeal.CamSe

open Idealize.ShloMosaic Idealize.ShloMosaic.TcCoe Idealize.ShloMosaic.Tactic
open Idealize.SL.Sem
open Cert.KernelIdeal Cert.KernelIdeal.Gen

variable {F : FTy → Type} [FloatOps F] [Named F]

/-- The attention matrix the second loop multiplies by: the softmax payload of the finished Gram matrix. -/
def attnOf (x5 : Vec F S1x256x9216 .f32) : FVec F S256x256 .bf16 := k0_pay7 (acc x5 (Scf.trips k0_t1_loop.lb k0_t1_loop.ub k0_t1_loop.st)).2

/-- The hidden vector of the gating branch: its payload of the finished row sums and the first layer's weights. -/
def hiddenOf (x1 : Vec F S32x256 .f32) (x2 : Vec F S32x1 .f32) (x5 : Vec F S1x256x9216 .f32) : FVec F S32x1 .f32 :=
  k0_pay8 (acc x5 (Scf.trips k0_t1_loop.lb k0_t1_loop.ub k0_t1_loop.st)).1 x1 x2

/-- Store `k` of the second loop. -/
def piece (x0 : Vec F S1x1 .f32) (x1 : Vec F S32x256 .f32) (x2 : Vec F S32x1 .f32) (x3 : Vec F S256x32 .f32) (x4 : Vec F S256x1 .f32)
    (x5 : Vec F S1x256x9216 .f32) (k : Fin k0_t2_loop.trips) : View.Piece (Elt F) S1x256x9216 .f32 :=
  ⟨Rect.unit (s := S1x256x9216) (k0_off2 k) S1x256x1024.size (k0_off2_inb k),
    k0_pay1 (attnOf x5) (hiddenOf x1 x2 x5) x3 (constant S256x1 .f32 0#32) x4 x0 (chunk' x5 k)⟩

section
variable (𝒱 : Variants) (c : Dev nD) (bd : Option 𝒱.V) (i : grid0.Coords) (arg1 : Memref sig .tc .vmem S1x1 .f32) (harg1 : arg1.IsWhole) (arg2 : Memref sig .tc .vmem S32x256 .f32) (harg2 : arg2.IsWhole) (arg3 : Memref sig .tc .vmem S32x1 .f32) (harg3 : arg3.IsWhole) (arg4 : Memref sig .tc .vmem S256x32 .f32) (harg4 : arg4.IsWhole) (arg5 : Memref sig .tc .vmem S256x1 .f32) (harg5 : arg5.IsWhole) (arg6 : Memref sig .tc .vmem S1x256x9216 .f32) (harg6 : arg6.IsWhole) (arg7 : Memref sig .tc .vmem S1x256x9216 .f32) (harg7 : arg7.IsWhole) (arg8 : Memref sig .tc .vmem S256x256 .f32) (harg8 : arg8.IsWhole)

/-- Every store the second loop has made before trip `n` is some trip's store. -/
theorem mem_pb (v23 : FVec F S256x256 .bf16) (v32 : FVec F S32x1 .f32) (v33 : Vec F S256x32 .f32) (cst_18 : FVec F S256x1 .f32)
    (v35 : Vec F S256x1 .f32) (v39 : Vec F S1x1 .f32) (x5 : Vec F S1x256x9216 .f32) (n : ℕ) :
    ∀ p ∈ pb_k0_t2 (F := F) 𝒱 c bd i arg1 harg1 arg2 harg2 arg3 harg3 arg4 harg4 arg5 harg5 arg6 harg6 arg7 harg7 arg8 harg8 v23 v32 v33 cst_18 v35 v39 (harg6.unread x5) n,
      ∃ k : Fin k0_t2_loop.trips, p = (⟨Rect.unit (s := S1x256x9216) (k0_off2 k) S1x256x1024.size (k0_off2_inb k),
        k0_pay1 v23 v32 v33 cst_18 v35 v39 (chunk' x5 k)⟩ : View.Piece (Elt F) S1x256x9216 .f32) := by
  induction n with
  | zero => intro p hp; exact absurd hp List.not_mem_nil
  | succ n ih =>
    intro p hp
    rw [pb_k0_t2.eq_2] at hp
    unfold pb_k0_t2Step at hp
    by_cases h : n < k0_t2_loop.trips
    · rw [dif_pos h, tripL2, List.singleton_append, List.mem_cons] at hp
      rcases hp with rfl | hp
      · exact ⟨⟨n, h⟩, by rw [readAt_chunk']⟩
      · exact ih p hp
    · rw [dif_neg h] at hp
      exact ih p hp

end

/-- The run's list of stores into the output block, over the finished state of the first loop. -/
theorem run_pieces (c : Dev nD) (i : grid0.Coords) (arg1 : Memref sig .tc .vmem S1x1 .f32) (harg1 : arg1.IsWhole) (arg2 : Memref sig .tc .vmem S32x256 .f32) (harg2 : arg2.IsWhole) (arg3 : Memref sig .tc .vmem S32x1 .f32) (harg3 : arg3.IsWhole) (arg4 : Memref sig .tc .vmem S256x32 .f32) (harg4 : arg4.IsWhole) (arg5 : Memref sig .tc .vmem S256x1 .f32) (harg5 : arg5.IsWhole) (arg6 : Memref sig .tc .vmem S1x256x9216 .f32) (harg6 : arg6.IsWhole) (arg7 : Memref sig .tc .vmem S1x256x9216 .f32) (harg7 : arg7.IsWhole) (arg8 : Memref sig .tc .vmem S256x256 .f32) (harg8 : arg8.IsWhole)
    (x0 : Vec F S1x1 .f32) (x1 : Vec F S32x256 .f32) (x2 : Vec F S32x1 .f32) (x3 : Vec F S256x32 .f32) (x4 : Vec F S256x1 .f32) (x5 : Vec F S1x256x9216 .f32) :
    ∀ p ∈ (kernelRun0_A c i arg1 harg1 arg2 harg2 arg3 harg3 arg4 harg4 arg5 harg5 arg6 harg6 arg7 harg7 arg8 harg8 x0 x1 x2 x3 x4 x5).1, ∃ k : Fin k0_t2_loop.trips, p = piece x0 x1 x2 x3 x4 x5 k := by
  unfold kernelRun0_A
  dsimp only
  sl_unfold_words
  rw [View.writes_append, (st_eq_acc Variants.none c none i arg1 harg1 arg2 harg2 arg3 harg3 arg4 harg4 arg5 harg5 arg6 harg6 arg7 harg7 arg8 harg8 x5 arg8.view.junk _).2,
    (st_eq_acc Variants.none c none i arg1 harg1 arg2 harg2 arg3 harg3 arg4 harg4 arg5 harg5 arg6 harg6 arg7 harg7 arg8 harg8 x5 arg8.view.junk _).1]
  simp only [View.readAt_eq_ld, harg1.read_unread, harg2.read_unread, harg3.read_unread, harg4.read_unread, harg5.read_unread,
    View.ld_unit_zero (S := S32x256) hz2, View.ld_unit_zero (S := S32x1) hz2, View.ld_unit_zero (S := S256x32) hz2,
    View.ld_unit_zero (S := S256x1) hz2, View.ld_unit_zero (S := S1x1) hz2]
  exact mem_pb Variants.none c none i arg1 harg1 arg2 harg2 arg3 harg3 arg4 harg4 arg5 harg5 arg6 harg6 arg7 harg7 arg8 harg8 _ _ _ _ _ _ x5 _

end Cert.KernelIdeal.CamSe

end
-- ==== Proof.Spec.lean ====
/-
  The function both programs compute, for one batch entry, on the extended reals.

  With x : 256 × 9216 (a batch entry, its two spatial axes flattened), γ, w1 : 32 × 256, b1 : 32, w2 : 256 × 32, b2 : 256:
    E[c,d]  = Σ_n x[c,n]·x[d,n]                               the Gram matrix of the rows
    M[c,d]  = (max_d E[c,d]) − E[c,d]
    A[c,d]  = exp(M[c,d] − max_d M[c,d]) / Σ_d exp(M[c,d] − max_d M[c,d])       a row softmax
    p[c]    = (Σ_n x[c,n]) · (1/9216)                          the row means
    h[j]    = max(Σ_c w1[j,c]·p[c] + b1[j], 0)
    s[c]    = 1 / (1 + exp(−(Σ_j w2[c,j]·h[j] + b2[c])))
    out[c,n] = γ·((Σ_d A[c,d]·x[d,n])·s[c]) + x[c,n].
  Maxima start from −∞ (the word 0xFF800000, kept as a word: both programs spell it).
  A sum over the 9216 columns taken as nine consecutive chunks of 1024 is the same sum: addition of extended reals
  is commutative and associative, so no finiteness is needed (`sum_range_succ_chunk`, `sum_range_all`).
-/
import Idealize.ShloMosaic.PureOps.Ideal
import Idealize.ShloMosaic.PureOps.Ideal.Laws
import Idealize.ShloMosaic.Lib.ValueIdx
import Idealize.ShloMosaic.Lib.IdealHost

noncomputable section

namespace Cert.CamSe

open Idealize.ShloMosaic

/-- −∞ as both programs spell it. -/
abbrev negInf : EReal := Ideal.ofBits .f32 0xFF800000#32

/-- The maximum of a row of 256 entries, from −∞. -/
def rowMax (r : Fin 256 → EReal) : EReal := (Finset.univ : Finset (Fin 256)).fold max negInf r

/-- A row softmax of `maxrow − row`, with jax's second running maximum (again from −∞) kept as written. -/
def softmaxRow (r : Fin 256 → EReal) (d : Fin 256) : EReal :=
  let m : Fin 256 → EReal := fun d => rowMax r - r d
  let z : Fin 256 → EReal := fun d => Ideal.exp (m d - max negInf (rowMax m))
  Ideal.div (z d) (∑ d', z d')

section
variable (x : Fin 256 → Fin 9216 → EReal) (γ : EReal) (w1 : Fin 32 → Fin 256 → EReal) (b1 : Fin 32 → EReal)
  (w2 : Fin 256 → Fin 32 → EReal) (b2 : Fin 256 → EReal)

/-- The Gram matrix of the rows. -/
def energy (c d : Fin 256) : EReal := ∑ n : Fin 9216, x c n * x d n

/-- The attention weights. -/
def attn (c d : Fin 256) : EReal := softmaxRow (fun d => energy x c d) d

/-- The row sums. -/
def rowSum (c : Fin 256) : EReal := ∑ n : Fin 9216, x c n

/-- The hidden layer of the gate, from row sums `s`: the mean is the sum times 1/9216. -/
def hidden (s : Fin 256 → EReal) (j : Fin 32) : EReal :=
  max ((∑ c : Fin 256, w1 j c * (s c * ((1 / 9216 : ℝ) : EReal))) + b1 j) 0

/-- The gate. -/
def gate (h : Fin 32 → EReal) (c : Fin 256) : EReal := Ideal.logistic ((∑ j : Fin 32, w2 c j * h j) + b2 c)

/-- The result. -/
def out (c : Fin 256) (n : Fin 9216) : EReal :=
  γ * ((∑ d : Fin 256, attn x c d * x d n) * gate w2 b2 (hidden w1 b1 (rowSum x)) c) + x c n

end

/-! ## Sums taken chunk by chunk -/

/-- A row of 9216 entries read at a natural number (0 past the end: never reached). -/
def atNat (r : Fin 9216 → EReal) (n : ℕ) : EReal := if h : n < 9216 then r ⟨n, h⟩ else 0

theorem atNat_of_lt (r : Fin 9216 → EReal) {n : ℕ} (h : n < 9216) : atNat r n = r ⟨n, h⟩ := dif_pos h

/-- The sum of the first `1024·(k+1)` terms is the sum of the first `1024·k` plus chunk `k`'s. -/
theorem sum_range_succ_chunk (g : ℕ → EReal) (k : ℕ) :
    ∑ n ∈ Finset.range (1024 * (k + 1)), g n = ∑ n ∈ Finset.range (1024 * k), g n + ∑ j : Fin 1024, g (1024 * k + j.val) := by
  rw [Nat.mul_succ, Finset.sum_range_add]
  exact congrArg (_ + ·) (Finset.sum_range fun j => g (1024 * k + j))

/-- All 9216 terms, as a sum over the index type. -/
theorem sum_range_all (r : Fin 9216 → EReal) : ∑ n ∈ Finset.range (1024 * 9), atNat r n = ∑ n : Fin 9216, r n := by
  rw [show 1024 * 9 = 9216 from rfl, Finset.sum_range]
  exact Finset.sum_congr rfl fun n _ => atNat_of_lt r n.isLt

/-- The word 9216.0 is the real 9216. -/
theorem ofBits_9216 : Ideal.ofBits .f32 0x46100000#32 = ((9216 : ℝ) : EReal) := by
  simp [Ideal.ofBits, Ideal.ieee, -EReal.coe_mul]; norm_num

/-- Dividing by the word 9216.0 is multiplying by 1/9216, on every extended real. -/
theorem div_9216 (s : EReal) : Ideal.div s (Ideal.ofBits .f32 0x46100000#32) = s * ((1 / 9216 : ℝ) : EReal) := by
  rw [ofBits_9216, Ideal.div_coe (by norm_num : (9216 : ℝ) ≠ 0)]

end Cert.CamSe

end
-- ==== Proof.LibKeepdims.lean ====
/-
  Two layout operations read at an index, in the column ("keepdims") forms a row reduction that keeps its axis
  produces: a vector of length `a` recast as an `[a, 1]` column, and an `[a, 1]` column broadcast along its unit
  axis to `[a, b]`.  Both are stated over indices built from literal coordinates.
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` vector cast to an `[a, 1]` column reads, at `(i, u)`, the vector at `i`, whatever the unit
    coordinate `u`: both positions have the same row-major offset `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims

end
-- ==== Proof.PayLoop1.lean ====
/-
  The payloads of the first loop read at an index, on the extended reals: trip k adds to the Gram matrix the
  products of chunk k's rows, and to the row sums chunk k's row sums.
-/
import proofs.«174097_j71330816852397_2_alg».proof.Proof.Gen.KernelIdeal.Skeleton
import proofs.«174097_j71330816852397_2_alg».proof.Proof.Spec
import proofs.«174097_j71330816852397_2_alg».proof.Proof.LibKeepdims
import Idealize.ShloMosaic.Lib.ValueLayout
import Idealize.ShloMosaic.Lib.Pipeline.Value
import Idealize.ShloMosaic.PureOps.Ideal.Laws

set_option maxRecDepth 16384

noncomputable section

namespace Cert.KernelIdeal.CamSe

open Idealize.ShloMosaic Idealize.ShloMosaic.ValueIdx
open Cert.KernelIdeal Cert.KernelIdeal.Gen Cert.LibKeepdims

/-- A matrix product into the zero splat, one axis contracted, at an output index: the sum over that axis of
    the products of the operands at the indices `li`, `ri` the dimension numbers name. -/
theorem matmul_zero_apply {sl sr so : Shape} {φ₁ φ₂ : FTy} (D : DotDims sl sr so) (K : ℕ) (hr : D.contr.rank = 1)
    (hs : D.contr.size ⟨0, by omega⟩ = K) (prec : Option ContractPrecision) (l : FVec Ideal sl φ₁) (r : FVec Ideal sr φ₂)
    (j : so.Idx) (li : Fin K → sl.Idx) (ri : Fin K → sr.Idx)
    (hl : ∀ k, D.lhsIdx j ((contrEquiv1 D K hr hs).symm k) = li k)
    (hri : ∀ k, D.rhsIdx j ((contrEquiv1 D K hr hs).symm k) = ri k) :
    FloatOps.matmul D prec l r (constant so .f32 0x00000000#32) j = ∑ k : Fin K, l (li k) * r (ri k) := by
  rw [Ideal.matmul_constant_zero_apply, ← Equiv.sum_comp (contrEquiv1 D K hr hs).symm]
  exact Finset.sum_congr rfl fun k _ => by rw [hl k, hri k]

/-! ## The operand indices of the four matrix products, axis by axis -/

theorem gramD_lhs0 (j : S256x256.Idx) (q : dot_S256x1024_S256x1024_S256x256_1_1_0_0_n_n.contr.Idx) :
    (dot_S256x1024_S256x1024_S256x256_1_1_0_0_n_n.lhsIdx j q 0).val = (j 0).val := by
  unfold DotDims.lhsIdx
  rw [dif_neg (show ¬(0 : Fin S256x1024.rank) ∈ dot_S256x1024_S256x1024_S256x256_1_1_0_0_n_n.lhsBatch by decide),
    dif_pos (show (0 : Fin S256x1024.rank) ∈ dot_S256x1024_S256x1024_S256x256_1_1_0_0_n_n.lhsNonContracting by decide)]
  rfl
theorem gramD_lhs1 (j : S256x256.Idx) (q : dot_S256x1024_S256x1024_S256x256_1_1_0_0_n_n.contr.Idx) :
    (dot_S256x1024_S256x1024_S256x256_1_1_0_0_n_n.lhsIdx j q 1).val = (q ⟨0, by decide⟩).val :=
  dot_S256x1024_S256x1024_S256x256_1_1_0_0_n_n.lhsIdx_val_of_single rfl j q
theorem gramD_rhs0 (j : S256x256.Idx) (q : dot_S256x1024_S256x1024_S256x256_1_1_0_0_n_n.contr.Idx) :
    (dot_S256x1024_S256x1024_S256x256_1_1_0_0_n_n.rhsIdx j q 0).val = (j 1).val := by
  unfold DotDims.rhsIdx
  rw [dif_neg (show ¬(0 : Fin S256x1024.rank) ∈ dot_S256x1024_S256x1024_S256x256_1_1_0_0_n_n.rhsBatch by decide),
    dif_pos (show (0 : Fin S256x1024.rank) ∈ dot_S256x1024_S256x1024_S256x256_1_1_0_0_n_n.rhsNonContracting by decide)]
  rfl
theorem gramD_rhs1 (j : S256x256.Idx) (q : dot_S256x1024_S256x1024_S256x256_1_1_0_0_n_n.contr.Idx) :
    (dot_S256x1024_S256x1024_S256x256_1_1_0_0_n_n.rhsIdx j q 1).val = (q ⟨0, by decide⟩).val :=
  dot_S256x1024_S256x1024_S256x256_1_1_0_0_n_n.rhsIdx_val_of_single rfl j q
theorem fc1D_lhs0 (j : S32x1.Idx) (q : dot_S32x256_S256x1_S32x1_1_0_0_1_n_n.contr.Idx) :
    (dot_S32x256_S256x1_S32x1_1_0_0_1_n_n.lhsIdx j q 0).val = (j 0).val := by
  unfold DotDims.lhsIdx
  rw [dif_neg (show ¬(0 : Fin S32x256.rank) ∈ dot_S32x256_S256x1_S32x1_1_0_0_1_n_n.lhsBatch by decide),
    dif_pos (show (0 : Fin S32x256.rank) ∈ dot_S32x256_S256x1_S32x1_1_0_0_1_n_n.lhsNonContracting by decide)]
  rfl
theorem fc1D_lhs1 (j : S32x1.Idx) (q : dot_S32x256_S256x1_S32x1_1_0_0_1_n_n.contr.Idx) :
    (dot_S32x256_S256x1_S32x1_1_0_0_1_n_n.lhsIdx j q 1).val = (q ⟨0, by decide⟩).val :=
  dot_S32x256_S256x1_S32x1_1_0_0_1_n_n.lhsIdx_val_of_single rfl j q
theorem fc1D_rhs0 (j : S32x1.Idx) (q : dot_S32x256_S256x1_S32x1_1_0_0_1_n_n.contr.Idx) :
    (dot_S32x256_S256x1_S32x1_1_0_0_1_n_n.rhsIdx j q 0).val = (q ⟨0, by decide⟩).val :=
  dot_S32x256_S256x1_S32x1_1_0_0_1_n_n.rhsIdx_val_of_single rfl j q
theorem fc1D_rhs1 (j : S32x1.Idx) (q : dot_S32x256_S256x1_S32x1_1_0_0_1_n_n.contr.Idx) :
    (dot_S32x256_S256x1_S32x1_1_0_0_1_n_n.rhsIdx j q 1).val = (j 1).val := by
  unfold DotDims.rhsIdx
  rw [dif_neg (show ¬(1 : Fin S256x1.rank) ∈ dot_S32x256_S256x1_S32x1_1_0_0_1_n_n.rhsBatch by decide),
    dif_pos (show (1 : Fin S256x1.rank) ∈ dot_S32x256_S256x1_S32x1_1_0_0_1_n_n.rhsNonContracting by decide)]
  rfl
theorem fc2D_lhs0 (j : S256x1.Idx) (q : dot_S256x32_S32x1_S256x1_1_0_0_1_n_n.contr.Idx) :
    (dot_S256x32_S32x1_S256x1_1_0_0_1_n_n.lhsIdx j q 0).val = (j 0).val := by
  unfold DotDims.lhsIdx
  rw [dif_neg (show ¬(0 : Fin S256x32.rank) ∈ dot_S256x32_S32x1_S256x1_1_0_0_1_n_n.lhsBatch by decide),
    dif_pos (show (0 : Fin S256x32.rank) ∈ dot_S256x32_S32x1_S256x1_1_0_0_1_n_n.lhsNonContracting by decide)]
  rfl
theorem fc2D_lhs1 (j : S256x1.Idx) (q : dot_S256x32_S32x1_S256x1_1_0_0_1_n_n.contr.Idx) :
    (dot_S256x32_S32x1_S256x1_1_0_0_1_n_n.lhsIdx j q 1).val = (q ⟨0, by decide⟩).val :=
  dot_S256x32_S32x1_S256x1_1_0_0_1_n_n.lhsIdx_val_of_single rfl j q
theorem fc2D_rhs0 (j : S256x1.Idx) (q : dot_S256x32_S32x1_S256x1_1_0_0_1_n_n.contr.Idx) :
    (dot_S256x32_S32x1_S256x1_1_0_0_1_n_n.rhsIdx j q 0).val = (q ⟨0, by decide⟩).val :=
  dot_S256x32_S32x1_S256x1_1_0_0_1_n_n.rhsIdx_val_of_single rfl j q
theorem fc2D_rhs1 (j : S256x1.Idx) (q : dot_S256x32_S32x1_S256x1_1_0_0_1_n_n.contr.Idx) :
    (dot_S256x32_S32x1_S256x1_1_0_0_1_n_n.rhsIdx j q 1).val = (j 1).val := by
  unfold DotDims.rhsIdx
  rw [dif_neg (show ¬(1 : Fin S32x1.rank) ∈ dot_S256x32_S32x1_S256x1_1_0_0_1_n_n.rhsBatch by decide),
    dif_pos (show (1 : Fin S32x1.rank) ∈ dot_S256x32_S32x1_S256x1_1_0_0_1_n_n.rhsNonContracting by decide)]
  rfl
theorem avD_lhs0 (j : S256x1024.Idx) (q : dot_S256x256_S256x1024_S256x1024_1_0_0_1_n_n.contr.Idx) :
    (dot_S256x256_S256x1024_S256x1024_1_0_0_1_n_n.lhsIdx j q 0).val = (j 0).val := by
  unfold DotDims.lhsIdx
  rw [dif_neg (show ¬(0 : Fin S256x256.rank) ∈ dot_S256x256_S256x1024_S256x1024_1_0_0_1_n_n.lhsBatch by decide),
    dif_pos (show (0 : Fin S256x256.rank) ∈ dot_S256x256_S256x1024_S256x1024_1_0_0_1_n_n.lhsNonContracting by decide)]
  rfl
theorem avD_lhs1 (j : S256x1024.Idx) (q : dot_S256x256_S256x1024_S256x1024_1_0_0_1_n_n.contr.Idx) :
    (dot_S256x256_S256x1024_S256x1024_1_0_0_1_n_n.lhsIdx j q 1).val = (q ⟨0, by decide⟩).val :=
  dot_S256x256_S256x1024_S256x1024_1_0_0_1_n_n.lhsIdx_val_of_single rfl j q
theorem avD_rhs0 (j : S256x1024.Idx) (q : dot_S256x256_S256x1024_S256x1024_1_0_0_1_n_n.contr.Idx) :
    (dot_S256x256_S256x1024_S256x1024_1_0_0_1_n_n.rhsIdx j q 0).val = (q ⟨0, by decide⟩).val :=
  dot_S256x256_S256x1024_S256x1024_1_0_0_1_n_n.rhsIdx_val_of_single rfl j q
theorem avD_rhs1 (j : S256x1024.Idx) (q : dot_S256x256_S256x1024_S256x1024_1_0_0_1_n_n.contr.Idx) :
    (dot_S256x256_S256x1024_S256x1024_1_0_0_1_n_n.rhsIdx j q 1).val = (j 1).val := by
  unfold DotDims.rhsIdx
  rw [dif_neg (show ¬(1 : Fin S256x1024.rank) ∈ dot_S256x256_S256x1024_S256x1024_1_0_0_1_n_n.rhsBatch by decide),
    dif_pos (show (1 : Fin S256x1024.rank) ∈ dot_S256x256_S256x1024_S256x1024_1_0_0_1_n_n.rhsNonContracting by decide)]
  rfl

/-- A chunk with its leading unit axis dropped. -/
theorem pay4_apply (v45 : Vec Ideal S1x256x1024 .f32) (c : Fin 256) (j : Fin 1024) :
    k0_pay4 v45 (ix2 c j) = v45 (ix3 (0 : Fin 1) c j) := by
  unfold k0_pay4
  exact shapeCast_1ab_ab_apply v45 shapeCasts_S1x256x1024_S256x1024 c j

/-- The Gram product x·xᵀ of a 256 × 1024 chunk contracts the column axis of both factors. -/
theorem gram_apply (y : FVec Ideal S256x1024 .f32) (c d : Fin 256) :
    FloatOps.matmul dot_S256x1024_S256x1024_S256x256_1_1_0_0_n_n (some .fp32) y y (constant S256x256 .f32 0x00000000#32) (ix2 c d)
      = ∑ j : Fin 1024, y (ix2 c j) * y (ix2 d j) := by
  refine matmul_zero_apply dot_S256x1024_S256x1024_S256x256_1_1_0_0_n_n 1024 rfl rfl _ y y (ix2 c d) (fun j => ix2 c j) (fun j => ix2 d j) (fun k => ?_) (fun k => ?_)
  · have hk := contrEquiv1_symm_val dot_S256x1024_S256x1024_S256x256_1_1_0_0_n_n 1024 rfl rfl k
    exact funext fun a => Fin.ext (by
      match a with
      | ⟨0, _⟩ => exact gramD_lhs0 _ _
      | ⟨1, _⟩ => exact (gramD_lhs1 _ _).trans hk)
  · have hk := contrEquiv1_symm_val dot_S256x1024_S256x1024_S256x256_1_1_0_0_n_n 1024 rfl rfl k
    exact funext fun a => Fin.ext (by
      match a with
      | ⟨0, _⟩ => exact gramD_rhs0 _ _
      | ⟨1, _⟩ => exact (gramD_rhs1 _ _).trans hk)

/-- One trip's Gram matrix: what the scratch held plus the products of the chunk's rows. -/
theorem pay5_apply (v45 : Vec Ideal S1x256x1024 .f32) (E : Vec Ideal S256x256 .f32) (c d : Fin 256) :
    k0_pay5 v45 E (ix2 c d) = E (ix2 c d) + ∑ j : Fin 1024, v45 (ix3 (0 : Fin 1) c j) * v45 (ix3 (0 : Fin 1) d j) := by
  unfold k0_pay5
  rw [shapeCast_self]
  show E (ix2 c d) + FloatOps.matmul dot_S256x1024_S256x1024_S256x256_1_1_0_0_n_n (some .fp32) (k0_pay4 v45) (k0_pay4 v45) (constant S256x256 .f32 0x00000000#32) (ix2 c d) = _
  rw [gram_apply]
  exact congrArg (_ + ·) (Finset.sum_congr rfl fun j _ => by rw [pay4_apply, pay4_apply])

/-- One trip's row sums: the carried sums plus the chunk's row sums. -/
theorem pay6_apply (a : FVec Ideal S256x1 .f32) (v45 : Vec Ideal S1x256x1024 .f32) (c : Fin 256) (u : Fin 1) :
    k0_pay6 a v45 (ix2 c u) = a (ix2 c u) + ∑ j : Fin 1024, v45 (ix3 (0 : Fin 1) c j) := by
  unfold k0_pay6
  show a (ix2 c u) + shapeCast S256x1 (multiReduction (F := Ideal) .add [1] S256 (k0_pay4 v45) 0x00000000#32 reduces_S256x1024_S256 (.inl rfl) rfl) shapeCasts_S256_S256x1 (ix2 c u) = _
  rw [shapeCast_a_a1_apply]
  refine congrArg (_ + ·) ((Ideal.multiReduction_add_single (k0_pay4 v45) 0x00000000#32 reduces_S256x1024_S256 (.inl rfl) rfl (ix1 c)).trans ?_)
  refine Finset.sum_congr rfl fun j _ => ?_
  exact (congrArg (k0_pay4 v45) (funext fun a => Fin.ext (by match a with | ⟨0, _⟩ => rfl | ⟨1, _⟩ => rfl))).trans (pay4_apply v45 c j)

/-- The zero fill of the scratch, and the zero the row sums start from. -/
theorem pay2_apply (i : S256x256.Idx) : k0_pay2 (F := Ideal) i = 0 := by
  unfold k0_pay2; rw [shapeCast_self]; exact Ideal.ofBits_zero_f32
theorem pay3_apply (i : S256x1.Idx) : k0_pay3 (F := Ideal) i = 0 := by
  unfold k0_pay3; exact Ideal.ofBits_zero_f32

end Cert.KernelIdeal.CamSe

end
-- ==== Proof.AccClosed.lean ====
/-
  The first loop in closed form, on the extended reals: before trip k the register holds each row's sum over its
  first 1024·k columns, and the scratch the Gram matrix over those columns. After the ninth trip these are the
  full row sums and the full Gram matrix.
-/
import proofs.«174097_j71330816852397_2_alg».proof.Proof.Trips
import proofs.«174097_j71330816852397_2_alg».proof.Proof.PayLoop1

set_option maxRecDepth 16384

noncomputable section

namespace Cert.KernelIdeal.CamSe

open Idealize.ShloMosaic Idealize.ShloMosaic.ValueIdx
open Cert.KernelIdeal Cert.KernelIdeal.Gen Cert.CamSe

theorem trips1_eq : k0_t1_loop.trips = 9 := by decide +kernel
theorem trips2_eq : k0_t2_loop.trips = 9 := by decide +kernel

/-- Row `c` of a block, as a function of the column. -/
def rowOf (x5 : Vec Ideal S1x256x9216 .f32) (c : Fin 256) : Fin 9216 → EReal := fun n => x5 (ix3 (0 : Fin 1) c n)

/-- Chunk `k` at `(c, j)` is the block at column `1024k + j` of row `c`. -/
theorem chunk_apply (x5 : Vec Ideal S1x256x9216 .f32) (k : Fin k0_t1_loop.trips) (u : Fin 1) (c : Fin 256) (j : Fin 1024) :
    chunk x5 k (ix3 u c j) = atNat (rowOf x5 c) (1024 * k.val + j.val) := by
  have hk : k.val < 9 := Nat.lt_of_lt_of_le k.isLt k0_t1_abs.2.1
  have hlt : 1024 * k.val + j.val < 9216 := by have := j.isLt; omega
  rw [atNat_of_lt _ hlt]
  have ho := k0_off1_eq k
  have hu : u.val = 0 := by omega
  unfold chunk rowOf
  show x5 ((Rect.unit (s := S1x256x9216) (k0_off1 k) S1x256x1024.size (k0_off1_inb k)).idx (ix3 u c j)) = _
  refine congrArg x5 (funext fun a => Fin.ext ?_)
  match a with
  | ⟨0, _⟩ => show k0_off1 k 0 + 1 * u.val = 0; rw [ho, hu]; rfl
  | ⟨1, _⟩ => show k0_off1 k 1 + 1 * c.val = c.val; rw [ho]; show 0 + 1 * c.val = c.val; omega
  | ⟨2, _⟩ => show k0_off1 k 2 + 1 * j.val = 1024 * k.val + j.val; rw [ho]; show 1024 * k.val + 1 * j.val = _; omega

theorem chunk'_apply (x5 : Vec Ideal S1x256x9216 .f32) (k : Fin k0_t2_loop.trips) (u : Fin 1) (c : Fin 256) (j : Fin 1024) :
    chunk' x5 k (ix3 u c j) = atNat (rowOf x5 c) (1024 * k.val + j.val) := by
  have hk : k.val < 9 := Nat.lt_of_lt_of_le k.isLt k0_t2_abs.2.1
  have hlt : 1024 * k.val + j.val < 9216 := by have := j.isLt; omega
  rw [atNat_of_lt _ hlt]
  have ho := k0_off2_eq k
  have hu : u.val = 0 := by omega
  unfold chunk' rowOf
  show x5 ((Rect.unit (s := S1x256x9216) (k0_off2 k) S1x256x1024.size (k0_off2_inb k)).idx (ix3 u c j)) = _
  refine congrArg x5 (funext fun a => Fin.ext ?_)
  match a with
  | ⟨0, _⟩ => show k0_off2 k 0 + 1 * u.val = 0; rw [ho, hu]; rfl
  | ⟨1, _⟩ => show k0_off2 k 1 + 1 * c.val = c.val; rw [ho]; show 0 + 1 * c.val = c.val; omega
  | ⟨2, _⟩ => show k0_off2 k 2 + 1 * j.val = 1024 * k.val + j.val; rw [ho]; show 1024 * k.val + 1 * j.val = _; omega

/-- The state before trip `k`: sums over the first `1024·k` columns. -/
theorem acc_closed (x5 : Vec Ideal S1x256x9216 .f32) (k : ℕ) (hk : k ≤ 9) :
    (∀ (c : Fin 256) (u : Fin 1), (acc x5 k).1 (ix2 c u) = ∑ n ∈ Finset.range (1024 * k), atNat (rowOf x5 c) n)
    ∧ (∀ c d : Fin 256, (acc x5 k).2 (ix2 c d)
        = ∑ n ∈ Finset.range (1024 * k), atNat (rowOf x5 c) n * atNat (rowOf x5 d) n) := by
  induction k with
  | zero =>
    refine ⟨fun c u => ?_, fun c d => ?_⟩
    · show k0_pay3 (F := Ideal) (ix2 c u) = _; rw [pay3_apply]; rfl
    · show k0_pay2 (F := Ideal) (ix2 c d) = _; rw [pay2_apply]; rfl
  | succ k ih =>
    have hlt : k < k0_t1_loop.trips := by rw [trips1_eq]; omega
    obtain ⟨ih1, ih2⟩ := ih (by omega)
    rw [acc, dif_pos hlt]
    refine ⟨fun c u => ?_, fun c d => ?_⟩
    · show k0_pay6 (acc x5 k).1 (chunk x5 ⟨k, hlt⟩) (ix2 c u) = _
      rw [pay6_apply, ih1, sum_range_succ_chunk]
      exact congrArg (_ + ·) (Finset.sum_congr rfl fun j _ => chunk_apply x5 ⟨k, hlt⟩ 0 c j)
    · show k0_pay5 (chunk x5 ⟨k, hlt⟩) (acc x5 k).2 (ix2 c d) = _
      rw [pay5_apply, ih2, sum_range_succ_chunk (fun n => atNat (rowOf x5 c) n * atNat (rowOf x5 d) n)]
      exact congrArg (_ + ·) (Finset.sum_congr rfl fun j _ => by rw [chunk_apply, chunk_apply])

/-- After the loop: the full row sums and the full Gram matrix of the block's rows. -/
theorem acc_final (x5 : Vec Ideal S1x256x9216 .f32) :
    (∀ (c : Fin 256) (u : Fin 1), (acc x5 (Scf.trips k0_t1_loop.lb k0_t1_loop.ub k0_t1_loop.st)).1 (ix2 c u) = rowSum (rowOf x5) c)
    ∧ (∀ c d : Fin 256, (acc x5 (Scf.trips k0_t1_loop.lb k0_t1_loop.ub k0_t1_loop.st)).2 (ix2 c d) = energy (rowOf x5) c d) := by
  have h9 : Scf.trips k0_t1_loop.lb k0_t1_loop.ub k0_t1_loop.st = 9 := trips1_eq
  rw [h9]
  obtain ⟨h1, h2⟩ := acc_closed x5 9 le_rfl
  refine ⟨fun c u => ?_, fun c d => ?_⟩
  · rw [h1]; exact sum_range_all (rowOf x5 c)
  · rw [h2]; unfold energy
    rw [← sum_range_all (fun n => rowOf x5 c n * rowOf x5 d n)]
    refine Finset.sum_congr rfl fun n hn => ?_
    have hn' : n < 9216 := by have := Finset.mem_range.mp hn; omega
    rw [atNat_of_lt _ hn', atNat_of_lt _ hn', atNat_of_lt _ hn']

end Cert.KernelIdeal.CamSe

end
-- ==== Proof.PayTail.lean ====
/-
  The payloads after the first loop, read at an index on the extended reals: the row softmax of
  (row maximum − Gram matrix), the hidden layer of the gate from the row sums, and one chunk of the result.
-/
import proofs.«174097_j71330816852397_2_alg».proof.Proof.PayLoop1

set_option maxRecDepth 16384

noncomputable section

namespace Cert.KernelIdeal.CamSe

open Idealize.ShloMosaic Idealize.ShloMosaic.ValueIdx
open Cert.KernelIdeal Cert.KernelIdeal.Gen Cert.LibKeepdims Cert.CamSe

theorem exp_apply {s : Shape} {φ : FTy} (a : FVec Ideal s φ) (i : s.Idx) : exp a i = Ideal.exp (a i) := rfl
theorem logistic_apply {s : Shape} {φ : FTy} (a : FVec Ideal s φ) (i : s.Idx) : logistic a i = Ideal.logistic (a i) := rfl

/-! ## Row reductions of a 256 × 256 matrix, and a length-256 vector kept as a column -/

/-- A row's maximum, from −∞. -/
theorem rowmax_vec (M : FVec Ideal S256x256 .f32) (hφ : FTy.f32 = FTy.f32 ∨ FTy.f32 = FTy.bf16)
    (hacc : (4286578688#32 : BitVec 32) = 4286578688#32) (c : Fin 256) :
    multiReduction (F := Ideal) .maximumf [1] S256 M 0xFF800000#32 reduces_S256x256_S256 hφ hacc (ix1 c)
      = Cert.CamSe.rowMax (fun d => M (ix2 c d)) := by
  refine (Ideal.multiReduction_maximumf_single M 0xFF800000#32 reduces_S256x256_S256 hφ hacc (ix1 c)).trans ?_
  have e : (M ∘ reduces_S256x256_S256.lift (ix1 c)) = fun d : Fin 256 => M (ix2 c d) :=
    funext fun d => congrArg M (funext fun a => Fin.ext (by match a with | ⟨0, _⟩ => rfl | ⟨1, _⟩ => rfl))
  rw [e]; rfl

/-- A row's sum. -/
theorem rowsum_vec (M : FVec Ideal S256x256 .f32) (hφ : FTy.f32 = FTy.f32 ∨ FTy.f32 = FTy.bf16)
    (hacc : (0#32 : BitVec 32) = 0#32) (c : Fin 256) :
    multiReduction (F := Ideal) .add [1] S256 M 0x00000000#32 reduces_S256x256_S256 hφ hacc (ix1 c)
      = ∑ d : Fin 256, M (ix2 c d) := by
  refine (Ideal.multiReduction_add_single M 0x00000000#32 reduces_S256x256_S256 hφ hacc (ix1 c)).trans ?_
  exact Finset.sum_congr rfl fun d _ => congrArg M (funext fun a => Fin.ext (by match a with | ⟨0, _⟩ => rfl | ⟨1, _⟩ => rfl))

/-- A length-256 vector, kept as a column and spread along the rows of a 256 × 256 matrix. -/
theorem col_apply (w : FVec Ideal S256 .f32) (c d : Fin 256) :
    broadcastTo S256x256 (shapeCast S256x1 w shapeCasts_S256_S256x1) broadcasts_S256x1_S256x256 (ix2 c d) = w (ix1 c) := by
  refine (broadcastTo_apply _ broadcasts_S256x1_S256x256 (ix2 c d) (ix2 c (⟨0, Nat.one_pos⟩ : Fin 1)) fun ax => ?_).trans ?_
  · match ax with
    | ⟨0, _⟩ => rfl
    | ⟨1, _⟩ => rfl
  · exact shapeCast_apply w shapeCasts_S256_S256x1 _ (ix1 c) (by
      rw [Shape.rowMajor_val_two, Shape.rowMajor_val_one]
      show c.val = c.val * 1 + 0
      omega)

/-- The softmax payload: row `c` of the result is the row softmax of (row maximum − row `c`). -/
theorem pay7_apply (v7 : Vec Ideal S256x256 .f32) (c d : Fin 256) :
    k0_pay7 v7 (ix2 c d) = Cert.CamSe.softmaxRow (fun d => v7 (ix2 c d)) d := by
  unfold k0_pay7 Cert.CamSe.softmaxRow
  simp only [truncf_apply, divf_apply, subf_apply, exp_apply, col_apply, rowmax_vec _ (Or.inl rfl) rfl, rowsum_vec _ (Or.inl rfl) rfl,
    maximumf_apply, broadcast_apply]
  rfl

/-! ## The gate's two small matrix–vector products, and attention times a chunk -/

/-- The first layer: row `j` of w1 against the pooled column. -/
theorem fc1_apply (l : FVec Ideal S32x256 .f32) (r : FVec Ideal S256x1 .f32) (j : Fin 32) (u : Fin 1) :
    FloatOps.matmul dot_S32x256_S256x1_S32x1_1_0_0_1_n_n none l r (constant S32x1 .f32 0x00000000#32) (ix2 j u)
      = ∑ k : Fin 256, l (ix2 j k) * r (ix2 k u) := by
  refine matmul_zero_apply dot_S32x256_S256x1_S32x1_1_0_0_1_n_n 256 rfl rfl _ l r (ix2 j u) (fun k => ix2 j k) (fun k => ix2 k u) (fun k => ?_) (fun k => ?_)
  · have hk := contrEquiv1_symm_val dot_S32x256_S256x1_S32x1_1_0_0_1_n_n 256 rfl rfl k
    exact funext fun a => Fin.ext (by
      match a with
      | ⟨0, _⟩ => exact fc1D_lhs0 _ _
      | ⟨1, _⟩ => exact (fc1D_lhs1 _ _).trans hk)
  · have hk := contrEquiv1_symm_val dot_S32x256_S256x1_S32x1_1_0_0_1_n_n 256 rfl rfl k
    exact funext fun a => Fin.ext (by
      match a with
      | ⟨0, _⟩ => exact (fc1D_rhs0 _ _).trans hk
      | ⟨1, _⟩ => exact fc1D_rhs1 _ _)

/-- The second layer: row `c` of w2 against the hidden column. -/
theorem fc2_apply (l : FVec Ideal S256x32 .f32) (r : FVec Ideal S32x1 .f32) (c : Fin 256) (u : Fin 1) :
    FloatOps.matmul dot_S256x32_S32x1_S256x1_1_0_0_1_n_n none l r (constant S256x1 .f32 0x00000000#32) (ix2 c u)
      = ∑ k : Fin 32, l (ix2 c k) * r (ix2 k u) := by
  refine matmul_zero_apply dot_S256x32_S32x1_S256x1_1_0_0_1_n_n 32 rfl rfl _ l r (ix2 c u) (fun k => ix2 c k) (fun k => ix2 k u) (fun k => ?_) (fun k => ?_)
  · have hk := contrEquiv1_symm_val dot_S256x32_S32x1_S256x1_1_0_0_1_n_n 32 rfl rfl k
    exact funext fun a => Fin.ext (by
      match a with
      | ⟨0, _⟩ => exact fc2D_lhs0 _ _
      | ⟨1, _⟩ => exact (fc2D_lhs1 _ _).trans hk)
  · have hk := contrEquiv1_symm_val dot_S256x32_S32x1_S256x1_1_0_0_1_n_n 32 rfl rfl k
    exact funext fun a => Fin.ext (by
      match a with
      | ⟨0, _⟩ => exact (fc2D_rhs0 _ _).trans hk
      | ⟨1, _⟩ => exact fc2D_rhs1 _ _)

/-- Attention times a chunk: row `c` of the weights against column `j` of the chunk. -/
theorem av_apply (l : FVec Ideal S256x256 .bf16) (r : FVec Ideal S256x1024 .bf16) (c : Fin 256) (j : Fin 1024) :
    FloatOps.matmul dot_S256x256_S256x1024_S256x1024_1_0_0_1_n_n none l r (constant S256x1024 .f32 0x00000000#32) (ix2 c j)
      = ∑ k : Fin 256, l (ix2 c k) * r (ix2 k j) := by
  refine matmul_zero_apply dot_S256x256_S256x1024_S256x1024_1_0_0_1_n_n 256 rfl rfl _ l r (ix2 c j) (fun k => ix2 c k) (fun k => ix2 k j) (fun k => ?_) (fun k => ?_)
  · have hk := contrEquiv1_symm_val dot_S256x256_S256x1024_S256x1024_1_0_0_1_n_n 256 rfl rfl k
    exact funext fun a => Fin.ext (by
      match a with
      | ⟨0, _⟩ => exact avD_lhs0 _ _
      | ⟨1, _⟩ => exact (avD_lhs1 _ _).trans hk)
  · have hk := contrEquiv1_symm_val dot_S256x256_S256x1024_S256x1024_1_0_0_1_n_n 256 rfl rfl k
    exact funext fun a => Fin.ext (by
      match a with
      | ⟨0, _⟩ => exact (avD_rhs0 _ _).trans hk
      | ⟨1, _⟩ => exact avD_rhs1 _ _)

/-- The named constant is the rational 1/9216. -/
theorem inv_9216 : Named.named (F := Ideal) Cert.KernelIdeal.κ "inv_9216" (φ := .f32) 0x38E38E39#32 = ((1 / 9216 : ℝ) : EReal) :=
  IdealRules.named_const.ideal_named_scalar _ _ _ _ rfl

/-- The hidden layer from the row sums `v6`, the first layer's weights `v26` and bias `v28`. -/
theorem pay8_apply (v6 : FVec Ideal S256x1 .f32) (v26 : Vec Ideal S32x256 .f32) (v28 : Vec Ideal S32x1 .f32) (j : Fin 32) (u : Fin 1) :
    k0_pay8 v6 v26 v28 (ix2 j u)
      = Cert.CamSe.hidden (fun j c => v26 (ix2 j c)) (fun j => v28 (ix2 j u)) (fun c => v6 (ix2 c u)) j := by
  unfold k0_pay8 Cert.CamSe.hidden
  simp only [shapeCast_self, maximumf_apply, addf_apply, broadcast_apply, matmul, fc1_apply, mulf_apply, inv_9216]
  exact congrArg (max _) Ideal.ofBits_zero_f32

/-- A scalar kept as a 1 × 1 matrix, spread over a 256 × 1024 matrix. -/
theorem bcast_11_apply (v : FVec Ideal S1x1 .f32) (c : Fin 256) (j : Fin 1024) :
    broadcastTo S256x1024 v broadcasts_S1x1_S256x1024 (ix2 c j) = v (ix2 (0 : Fin 1) (0 : Fin 1)) :=
  broadcastTo_apply v broadcasts_S1x1_S256x1024 (ix2 c j) (ix2 (0 : Fin 1) (0 : Fin 1)) fun a => by
    match a with
    | ⟨0, _⟩ => rfl
    | ⟨1, _⟩ => rfl

/-- One chunk of the result: γ·((attention · chunk)·gate) + chunk, the gate from the hidden vector `v32`. -/
theorem pay1_apply (v23 : FVec Ideal S256x256 .bf16) (v32 : FVec Ideal S32x1 .f32) (v33 : Vec Ideal S256x32 .f32)
    (v35 : Vec Ideal S256x1 .f32) (v39 : Vec Ideal S1x1 .f32) (v45 : Vec Ideal S1x256x1024 .f32) (u : Fin 1) (c : Fin 256) (j : Fin 1024) :
    k0_pay1 v23 v32 v33 (constant S256x1 .f32 0x00000000#32) v35 v39 v45 (ix3 u c j)
      = v39 (ix2 (0 : Fin 1) (0 : Fin 1))
          * ((∑ d : Fin 256, v23 (ix2 c d) * v45 (ix3 (0 : Fin 1) d j))
            * Cert.CamSe.gate (fun c t => v33 (ix2 c t)) (fun c => v35 (ix2 c (0 : Fin 1))) (fun t => v32 (ix2 t (0 : Fin 1))) c)
        + v45 (ix3 (0 : Fin 1) c j) := by
  unfold k0_pay1 Cert.CamSe.gate
  simp only [shapeCast_ab_1ab_apply, shapeCast_self, addf_apply, mulf_apply, bcast_11_apply, broadcastTo_a1_ab_apply,
    logistic_apply, matmul, fc2_apply, av_apply, truncf_apply, shapeCast_1ab_ab_apply]

end Cert.KernelIdeal.CamSe

end
-- ==== Proof.KernelBlock.lean ====
/-
  The output block after the body, on the extended reals: at row c and column n it is the result function of
  the block's rows (the input block's), the scalar γ, and the gate's weights and biases.
-/
import proofs.«174097_j71330816852397_2_alg».proof.Proof.Pieces
import proofs.«174097_j71330816852397_2_alg».proof.Proof.AccClosed
import proofs.«174097_j71330816852397_2_alg».proof.Proof.PayTail

set_option maxRecDepth 16384

noncomputable section

namespace Cert.KernelIdeal.CamSe

open Idealize.ShloMosaic Idealize.ShloMosaic.ValueIdx
open Cert.KernelIdeal Cert.KernelIdeal.Gen Cert.CamSe

/-- The result function read off the six input blocks: x5 the batch entry's rows, x0 the scalar γ, x1 and x2 the
    first layer's weights and bias column, x3 and x4 the second layer's. -/
def blockSpec (x0 : Vec Ideal S1x1 .f32) (x1 : Vec Ideal S32x256 .f32) (x2 : Vec Ideal S32x1 .f32) (x3 : Vec Ideal S256x32 .f32) (x4 : Vec Ideal S256x1 .f32) (x5 : Vec Ideal S1x256x9216 .f32) : S1x256x9216.Idx → EReal := fun y =>
  Cert.CamSe.out (rowOf x5) (x0 (ix2 (0 : Fin 1) (0 : Fin 1))) (fun j c => x1 (ix2 j c)) (fun j => x2 (ix2 j (0 : Fin 1)))
    (fun c t => x3 (ix2 c t)) (fun c => x4 (ix2 c (0 : Fin 1))) (y 1) (y 2)

/-- The attention matrix the body uses is the softmax of the block's Gram matrix. -/
theorem attnOf_apply (x5 : Vec Ideal S1x256x9216 .f32) (c d : Fin 256) :
    attnOf x5 (ix2 c d) = Cert.CamSe.attn (rowOf x5) c d := by
  unfold attnOf Cert.CamSe.attn
  rw [pay7_apply]
  exact congrArg (fun r => Cert.CamSe.softmaxRow r d) (funext fun d' => (acc_final x5).2 c d')

/-- The hidden vector the body uses is the gate's first layer at the block's row sums. -/
theorem hiddenOf_apply (x1 : Vec Ideal S32x256 .f32) (x2 : Vec Ideal S32x1 .f32) (x5 : Vec Ideal S1x256x9216 .f32) (t : Fin 32) (u : Fin 1) :
    hiddenOf x1 x2 x5 (ix2 t u)
      = Cert.CamSe.hidden (fun j c => x1 (ix2 j c)) (fun j => x2 (ix2 j u)) (rowSum (rowOf x5)) t := by
  unfold hiddenOf
  rw [pay8_apply]
  exact congrArg (fun s => Cert.CamSe.hidden (fun j c => x1 (ix2 j c)) (fun j => x2 (ix2 j u)) s t) (funext fun c => (acc_final x5).1 c u)

/-- Store `k` of the second loop holds the result function on its own columns. -/
theorem piece_restricts (x0 : Vec Ideal S1x1 .f32) (x1 : Vec Ideal S32x256 .f32) (x2 : Vec Ideal S32x1 .f32) (x3 : Vec Ideal S256x32 .f32) (x4 : Vec Ideal S256x1 .f32) (x5 : Vec Ideal S1x256x9216 .f32) (k : Fin k0_t2_loop.trips) (u : Fin 1) (c : Fin 256) (j : Fin 1024) :
    k0_pay1 (attnOf x5) (hiddenOf x1 x2 x5) x3 (constant S256x1 .f32 0#32) x4 x0 (chunk' x5 k) (ix3 u c j)
      = blockSpec x0 x1 x2 x3 x4 x5
          ((Rect.unit (s := S1x256x9216) (k0_off2 k) S1x256x1024.size (k0_off2_inb k)).emb (ix3 u c j)) := by
  have hk : k.val < 9 := Nat.lt_of_lt_of_le k.isLt k0_t2_abs.2.1
  have hlt : 1024 * k.val + j.val < 9216 := by have := j.isLt; omega
  have ho := k0_off2_eq k
  have e1 : ((Rect.unit (s := S1x256x9216) (k0_off2 k) S1x256x1024.size (k0_off2_inb k)).emb (ix3 u c j)) 1 = c :=
    Fin.ext (by show k0_off2 k 1 + 1 * c.val = c.val; rw [ho]; show 0 + 1 * c.val = c.val; omega)
  have e2 : ((Rect.unit (s := S1x256x9216) (k0_off2 k) S1x256x1024.size (k0_off2_inb k)).emb (ix3 u c j)) 2 = ⟨1024 * k.val + j.val, hlt⟩ :=
    Fin.ext (by show k0_off2 k 2 + 1 * j.val = 1024 * k.val + j.val; rw [ho]; show 1024 * k.val + 1 * j.val = _; omega)
  unfold blockSpec
  rw [e1, e2, pay1_apply]
  unfold Cert.CamSe.out
  simp only [attnOf_apply, hiddenOf_apply, chunk'_apply, atNat_of_lt _ hlt]
  rfl

/-- THE BLOCK: what the body leaves in the output window's buffer is the result function of its input blocks. -/
theorem block_eq (c : Dev nD) (i : grid0.Coords) (arg1 : Memref sig .tc .vmem S1x1 .f32) (harg1 : arg1.IsWhole) (arg2 : Memref sig .tc .vmem S32x256 .f32) (harg2 : arg2.IsWhole) (arg3 : Memref sig .tc .vmem S32x1 .f32) (harg3 : arg3.IsWhole) (arg4 : Memref sig .tc .vmem S256x32 .f32) (harg4 : arg4.IsWhole) (arg5 : Memref sig .tc .vmem S256x1 .f32) (harg5 : arg5.IsWhole) (arg6 : Memref sig .tc .vmem S1x256x9216 .f32) (harg6 : arg6.IsWhole) (arg7 : Memref sig .tc .vmem S1x256x9216 .f32) (harg7 : arg7.IsWhole) (arg8 : Memref sig .tc .vmem S256x256 .f32) (harg8 : arg8.IsWhole)
    (x0 : Vec Ideal S1x1 .f32) (x1 : Vec Ideal S32x256 .f32) (x2 : Vec Ideal S32x1 .f32) (x3 : Vec Ideal S256x32 .f32) (x4 : Vec Ideal S256x1 .f32) (x5 : Vec Ideal S1x256x9216 .f32) :
    out0_A_6 c i arg1 harg1 arg2 harg2 arg3 harg3 arg4 harg4 arg5 harg5 arg6 harg6 arg7 harg7 arg8 harg8 x0 x1 x2 x3 x4 x5 = blockSpec x0 x1 x2 x3 x4 x5 := by
  funext y
  unfold out0_A_6
  refine View.read_writes_apply_of_pieces VO0_6 VO0_6.junk (blockSpec x0 x1 x2 x3 x4 x5) _ (fun p hp x => ?_) y
    (cover0_A_6 c i arg1 harg1 arg2 harg2 arg3 harg3 arg4 harg4 arg5 harg5 arg6 harg6 arg7 harg7 arg8 harg8 x0 x1 x2 x3 x4 x5 y)
  obtain ⟨k, rfl⟩ := run_pieces c i arg1 harg1 arg2 harg2 arg3 harg3 arg4 harg4 arg5 harg5 arg6 harg6 arg7 harg7 arg8 harg8 x0 x1 x2 x3 x4 x5 p hp
  have hx : x = ix3 (x 0) (x 1) (x 2) := eq_ix3 x
  rw [hx]
  exact piece_restricts x0 x1 x2 x3 x4 x5 k (x 0) (x 1) (x 2)

end Cert.KernelIdeal.CamSe

end
-- ==== Proof.KernelRun.lean ====
/-
  From the block to the program's result, on the extended reals.
  Grid point t stages batch entry t of the reshaped input and writes batch entry t of the region's output array; the
  sixteen points cover it. The host reshapes before the region only regroup the arguments; the one after it regroups
  the output array into the result.
-/
import proofs.«174097_j71330816852397_2_alg».proof.Proof.KernelBlock
import Idealize.ShloMosaic.Lib.StableHlo.Run

set_option maxRecDepth 16384

noncomputable section

namespace Cert.KernelIdeal.CamSe

open Idealize.ShloMosaic Idealize.ShloMosaic.TcCoe Idealize.ShloMosaic.ValueIdx Idealize.ShloMosaic.StableHlo
open Idealize.SL.Sem
open Idealize.ShloMosaic.Pipeline (Dat)
open Cert.KernelIdeal Cert.KernelIdeal.Gen Cert.CamSe

variable (m : (ℓ : Loc nD τ sig) → Buf (Elt Ideal) ℓ) (ρ : Dev nD → PrngReg)

/-! ## The arrays as the region finds them -/

theorem V_v0 (c : Dev nD) : (V m c main_v0 : S16x256x9216.Idx → EReal)
    = shapeCast S16x256x9216 (m ((c : Thread nD τ).loc main_arg0)) shapeCasts_S16x256x96x96_S16x256x9216 := by
  show StableHlo.after hostOps0 (fun b => m (c, b)) (Proc.devRef .tc main_v0) = _
  after_results
  rfl
theorem V_v1 (c : Dev nD) : (V m c main_v1 : S1x1.Idx → EReal)
    = shapeCast S1x1 (m ((c : Thread nD τ).loc main_arg1)) shapeCasts_S1_S1x1 := by
  show StableHlo.after hostOps0 (fun b => m (c, b)) (Proc.devRef .tc main_v1) = _
  after_results
  rfl
theorem V_v2 (c : Dev nD) : (V m c main_v2 : S32x1.Idx → EReal)
    = shapeCast S32x1 (m ((c : Thread nD τ).loc main_arg3)) shapeCasts_S32_S32x1 := by
  show StableHlo.after hostOps0 (fun b => m (c, b)) (Proc.devRef .tc main_v2) = _
  after_results
  rfl
theorem V_v3 (c : Dev nD) : (V m c main_v3 : S256x1.Idx → EReal)
    = shapeCast S256x1 (m ((c : Thread nD τ).loc main_arg5)) shapeCasts_S256_S256x1 := by
  show StableHlo.after hostOps0 (fun b => m (c, b)) (Proc.devRef .tc main_v3) = _
  after_results
  rfl

/-! ## The windows' blocks -/

/-- The printed index maps over the grid: the batch windows move with the point, the others stay. -/
theorem win_idx : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0) :=
  (by decide +kernel : ∀ t : Fin grid0.N, _)

theorem iblk0_eq (c : Dev nD) (t : Fin cfg0.N) : (iblk m c 0 t : Vec Ideal S1x1 .f32) = V m c main_v1 := by
  obtain ⟨⟨h0, h1⟩, -⟩ := win_idx t
  funext y
  unfold iblk
  rw [View.read_apply]
  show V m c main_v1 _ = V m c main_v1 y
  refine congrArg (V m c main_v1) (funext fun a => Fin.ext ?_)
  match a with
  | ⟨0, _⟩ => show win0_0.index t (0 : Fin 2) * 1 + 1 * (y 0).val = (y 0).val; rw [h0]; omega
  | ⟨1, _⟩ => show win0_0.index t (1 : Fin 2) * 1 + 1 * (y 1).val = (y 1).val; rw [h1]; omega
theorem iblk1_eq (c : Dev nD) (t : Fin cfg0.N) : (iblk m c 1 t : Vec Ideal S32x256 .f32) = V m c main_arg2 := by
  obtain ⟨-, ⟨h0, h1⟩, -⟩ := win_idx t
  funext y
  unfold iblk
  rw [View.read_apply]
  show V m c main_arg2 _ = V m c main_arg2 y
  refine congrArg (V m c main_arg2) (funext fun a => Fin.ext ?_)
  match a with
  | ⟨0, _⟩ => show win0_1.index t (0 : Fin 2) * 32 + 1 * (y 0).val = (y 0).val; rw [h0]; omega
  | ⟨1, _⟩ => show win0_1.index t (1 : Fin 2) * 256 + 1 * (y 1).val = (y 1).val; rw [h1]; omega
theorem iblk2_eq (c : Dev nD) (t : Fin cfg0.N) : (iblk m c 2 t : Vec Ideal S32x1 .f32) = V m c main_v2 := by
  obtain ⟨-, -, ⟨h0, h1⟩, -⟩ := win_idx t
  funext y
  unfold iblk
  rw [View.read_apply]
  show V m c main_v2 _ = V m c main_v2 y
  refine congrArg (V m c main_v2) (funext fun a => Fin.ext ?_)
  match a with
  | ⟨0, _⟩ => show win0_2.index t (0 : Fin 2) * 32 + 1 * (y 0).val = (y 0).val; rw [h0]; omega
  | ⟨1, _⟩ => show win0_2.index t (1 : Fin 2) * 1 + 1 * (y 1).val = (y 1).val; rw [h1]; omega
theorem iblk3_eq (c : Dev nD) (t : Fin cfg0.N) : (iblk m c 3 t : Vec Ideal S256x32 .f32) = V m c main_arg4 := by
  obtain ⟨-, -, -, ⟨h0, h1⟩, -⟩ := win_idx t
  funext y
  unfold iblk
  rw [View.read_apply]
  show V m c main_arg4 _ = V m c main_arg4 y
  refine congrArg (V m c main_arg4) (funext fun a => Fin.ext ?_)
  match a with
  | ⟨0, _⟩ => show win0_3.index t (0 : Fin 2) * 256 + 1 * (y 0).val = (y 0).val; rw [h0]; omega
  | ⟨1, _⟩ => show win0_3.index t (1 : Fin 2) * 32 + 1 * (y 1).val = (y 1).val; rw [h1]; omega
theorem iblk4_eq (c : Dev nD) (t : Fin cfg0.N) : (iblk m c 4 t : Vec Ideal S256x1 .f32) = V m c main_v3 := by
  obtain ⟨-, -, -, -, ⟨h0, h1⟩, -⟩ := win_idx t
  funext y
  unfold iblk
  rw [View.read_apply]
  show V m c main_v3 _ = V m c main_v3 y
  refine congrArg (V m c main_v3) (funext fun a => Fin.ext ?_)
  match a with
  | ⟨0, _⟩ => show win0_4.index t (0 : Fin 2) * 256 + 1 * (y 0).val = (y 0).val; rw [h0]; omega
  | ⟨1, _⟩ => show win0_4.index t (1 : Fin 2) * 1 + 1 * (y 1).val = (y 1).val; rw [h1]; omega

/-- Grid point `t` as a batch index. -/
def bat (t : Fin cfg0.N) : Fin 16 := ⟨t.val, Nat.lt_of_lt_of_eq t.isLt N_0⟩

/-- The batch window at point `t` is batch entry `t` of the reshaped input. -/
theorem iblk5_apply (c : Dev nD) (t : Fin cfg0.N) (u : Fin 1) (c' : Fin 256) (n : Fin 9216) :
    (iblk m c 5 t : Vec Ideal S1x256x9216 .f32) (ix3 u c' n) = V m c main_v0 (ix3 (bat t) c' n) := by
  obtain ⟨-, -, -, -, -, ⟨h0, h1, h2⟩, -⟩ := win_idx t
  have hu : u.val = 0 := by omega
  unfold iblk
  rw [View.read_apply]
  show V m c main_v0 _ = V m c main_v0 _
  refine congrArg (V m c main_v0) (funext fun a => Fin.ext ?_)
  match a with
  | ⟨0, _⟩ => show win0_5.index t (0 : Fin 3) * 1 + 1 * u.val = t.val; rw [h0, hu]; omega
  | ⟨1, _⟩ => show win0_5.index t (1 : Fin 3) * 256 + 1 * c'.val = c'.val; rw [h1]; omega
  | ⟨2, _⟩ => show win0_5.index t (2 : Fin 3) * 9216 + 1 * n.val = n.val; rw [h2]; omega

/-! ## The region's output array -/

/-- The result function of batch entry `b` of the arrays as the region finds them. -/
def arrSpec (c : Dev nD) : S16x256x9216.Idx → EReal := fun i =>
  Cert.CamSe.out (fun c' n => V m c main_v0 (ix3 (i 0) c' n)) (V m c main_v1 (ix2 (0 : Fin 1) (0 : Fin 1)))
    (fun j c' => V m c main_arg2 (ix2 j c')) (fun j => V m c main_v2 (ix2 j (0 : Fin 1)))
    (fun c' t => V m c main_arg4 (ix2 c' t)) (fun c' => V m c main_v3 (ix2 c' (0 : Fin 1))) (i 1) (i 2)

/-- WHAT POINT `t` WRITES BACK is block `t` of the result function. -/
theorem flushed_eq (c : Dev nD) (t : Fin cfg0.N) :
    (dats m 0 c).flushed 6 t = ((cfg0.win 6).blk t).view.read (Elt Ideal) (arrSpec m c) := by
  obtain ⟨-, -, -, -, -, -, ⟨h0, h1, h2⟩⟩ := win_idx t
  show (cfg0.win 6).cut (grid0.coords t) ((dats m 0 c).after 6 t) = _
  rw [after0_6]
  unfold outsAt0
  rw [block_eq, iblk0_eq, iblk1_eq, iblk2_eq, iblk3_eq, iblk4_eq]
  funext y
  rw [View.read_apply]
  have e0 : (((cfg0.win 6).blk t).view.emb y) 0 = bat t :=
    Fin.ext (by show win0_6.index t (0 : Fin 3) * 1 + 1 * (y 0).val = t.val; rw [h0]; have hy0 : (y 0).val < 1 := (y 0).isLt; omega)
  have e1 : (((cfg0.win 6).blk t).view.emb y) 1 = y 1 :=
    Fin.ext (by show win0_6.index t (1 : Fin 3) * 256 + 1 * (y 1).val = (y 1).val; rw [h1]; omega)
  have e2 : (((cfg0.win 6).blk t).view.emb y) 2 = y 2 :=
    Fin.ext (by show win0_6.index t (2 : Fin 3) * 9216 + 1 * (y 2).val = (y 2).val; rw [h2]; omega)
  show blockSpec _ _ _ _ _ (iblk m c 5 t) y = arrSpec m c (((cfg0.win 6).blk t).view.emb y)
  unfold blockSpec arrSpec
  rw [e0, e1, e2]
  exact congrArg (fun r => Cert.CamSe.out r _ _ _ _ _ (y 1) (y 2)) (funext fun c' => funext fun n => iblk5_apply m c t 0 c' n)

/-- An index of the output array is in point `t`'s block iff its batch coordinate is `t`. -/
theorem mem_blk (t : Fin cfg0.N) (i : S16x256x9216.Idx) :
    i ∈ ((cfg0.win 6).blk t).view.set ↔ ∀ a : Fin 3, win0_6.index t a * S1x256x9216.size a ≤ (i a).val
      ∧ (i a).val < win0_6.index t a * S1x256x9216.size a + S1x256x9216.size a := by
  show i ∈ ((View.whole main_v4).slice (win0_6.rect t)).set ↔ _
  rw [View.set_slice_whole, Rect.mem_set_unit]
  exact Iff.rfl

/-- THE OUTPUT ARRAY after the region: the result function, batch entry by batch entry. -/
theorem final (c : Dev nD) : (dats m 0 c).arrAt 6 cfg0.N = arrSpec m c :=
  (dats m 0 c).arrAt_eq_of_cover 6 (arrSpec m c) (fun t _ => flushed_eq m c t) fun i => by
    have hi0 : (i 0).val < 16 := (i 0).isLt
    have hi1 : (i 1).val < 256 := (i 1).isLt
    have hi2 : (i 2).val < 9216 := (i 2).isLt
    let t : Fin cfg0.N := ⟨(i 0).val, by rw [show cfg0.N = 16 from N_0]; exact hi0⟩
    obtain ⟨-, -, -, -, -, -, ⟨h0, h1, h2⟩⟩ := win_idx t
    refine ⟨t, flush0_6 t, ?_⟩
    rw [mem_blk]
    intro a
    match a with
    | ⟨0, _⟩ => show win0_6.index t (0 : Fin 3) * 1 ≤ (i 0).val ∧ (i 0).val < win0_6.index t (0 : Fin 3) * 1 + 1; rw [h0]; show (i 0).val * 1 ≤ (i 0).val ∧ (i 0).val < (i 0).val * 1 + 1; omega
    | ⟨1, _⟩ => show win0_6.index t (1 : Fin 3) * 256 ≤ (i 1).val ∧ (i 1).val < win0_6.index t (1 : Fin 3) * 256 + 256; rw [h1]; omega
    | ⟨2, _⟩ => show win0_6.index t (2 : Fin 3) * 9216 ≤ (i 2).val ∧ (i 2).val < win0_6.index t (2 : Fin 3) * 9216 + 9216; rw [h2]; omega

/-! ## The host reshape after the region, and the run -/

/-- The program's result: the output array regrouped to four axes. -/
theorem tail_eq (c : Dev nD) :
    (Pipeline.afterTail₀ cfgs (dats m) 0 (V0 m) [hostOps1] c main_v5 : S16x256x96x96.Idx → EReal)
      = shapeCast S16x256x96x96 (arrSpec m c) shapeCasts_S16x256x9216_S16x256x96x96 := by
  unfold Pipeline.afterTail₀
  show StableHlo.after hostOps1 _ (Proc.devRef .tc main_v5) = _
  after_results
  have h4 : Pipeline.withArrays (cfgs 0).spec c (V0 m c) (fun w => (dats m 0 c).arrAt w (cfgs 0).N) (Proc.tc.devRef main_v4)
      = arrSpec m c := (Pipeline.withArrays_arr spec0 launch0.win.arr_inj c _ _ 6).trans (final m c)
  rw [h4]
  rfl

/-- THE RUN of the idealized kernel, read: the result at the result function regrouped, the arguments unchanged. -/
theorem run : θ_run defs (onTc (τ := τ) (main (F := Ideal))) ⟨m, fun _ => 0, ρ⟩ fun r => ∀ c : Dev nD,
      r.2.mem ((c.tc : Thread nD τ).loc main_v5) = shapeCast S16x256x96x96 (arrSpec m c) shapeCasts_S16x256x9216_S16x256x96x96
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c),
      ((h c).1 3).trans (((dats m 0 c).arrAt_in 3 rfl _).trans ((A_eq m c 3).trans (V_main_arg4 m c))),
      ((h c).2 main_arg5 (Pipeline.mem_restRefs_of main_arg5 (by decide) (by decide))).trans (W_main_arg5 m (dats m) c)⟩)
    (run_main m ρ)

end Cert.KernelIdeal.CamSe

end
-- ==== Proof.Result.lean ====
/-
  The whole result as one function of the six argument arrays, over four-axis indices (b, c, h, w): the
  result function of batch entry b — its rows x[c, 96·h' + w'] = X[b, c, h', w'] — at row c and column 96·h + w.
-/
import proofs.«174097_j71330816852397_2_alg».proof.Proof.Spec

noncomputable section

namespace Cert.CamSe

open Idealize.ShloMosaic Idealize.ShloMosaic.ValueIdx

theorem div96_lt (n : Fin 9216) : n.val / 96 < 96 := by have := n.isLt; omega
theorem mod96_lt (n : Fin 9216) : n.val % 96 < 96 := Nat.mod_lt _ (by decide)
theorem flat_lt (h w : Fin 96) : 96 * h.val + w.val < 9216 := by have := h.isLt; have := w.isLt; omega

/-- Batch entry `b` as 256 rows of 9216 columns: the two spatial axes flattened row-major. -/
def rows (X : (⟨4, ![16, 256, 96, 96]⟩ : Shape).Idx → EReal) (b : Fin 16) : Fin 256 → Fin 9216 → EReal :=
  fun c n => X (ix4 b c ⟨n.val / 96, div96_lt n⟩ ⟨n.val % 96, mod96_lt n⟩)

/-- The result at `(b, c, h, w)`. -/
def result (X : (⟨4, ![16, 256, 96, 96]⟩ : Shape).Idx → EReal) (g : (⟨1, ![1]⟩ : Shape).Idx → EReal)
    (W1 : (⟨2, ![32, 256]⟩ : Shape).Idx → EReal) (B1 : (⟨1, ![32]⟩ : Shape).Idx → EReal)
    (W2 : (⟨2, ![256, 32]⟩ : Shape).Idx → EReal) (B2 : (⟨1, ![256]⟩ : Shape).Idx → EReal)
    (b : Fin 16) (c : Fin 256) (h w : Fin 96) : EReal :=
  out (rows X b) (g (ix1 (0 : Fin 1))) (fun j c' => W1 (ix2 j c')) (fun j => B1 (ix1 j)) (fun c' t => W2 (ix2 c' t))
    (fun c' => B2 (ix1 c')) c ⟨96 * h.val + w.val, flat_lt h w⟩

end Cert.CamSe

end
-- ==== Proof.KernelResult.lean ====
/-
  The idealized kernel's result, index by index: regrouping the region's output array to four axes and reading the
  host reshapes of the arguments back gives the result function of the argument arrays.
-/
import proofs.«174097_j71330816852397_2_alg».proof.Proof.KernelRun
import proofs.«174097_j71330816852397_2_alg».proof.Proof.Result

set_option maxRecDepth 16384

noncomputable section

namespace Cert.KernelIdeal.CamSe

open Idealize.ShloMosaic Idealize.ShloMosaic.TcCoe Idealize.ShloMosaic.ValueIdx
open Idealize.SL.Sem
open Cert.KernelIdeal Cert.KernelIdeal.Gen Cert.CamSe Cert.LibKeepdims

variable (m : (ℓ : Loc nD τ sig) → Buf (Elt Ideal) ℓ)

/-- The flattened input at `(b, c, n)` is the argument at `(b, c, n / 96, n % 96)`. -/
theorem reshape_in (X : S16x256x96x96.Idx → EReal) (b : Fin 16) (c : Fin 256) (n : Fin 9216) :
    shapeCast S16x256x9216 X shapeCasts_S16x256x96x96_S16x256x9216 (ix3 b c n) = rows X b c n := by
  unfold rows
  refine shapeCast_apply X _ _ _ ?_
  rw [Shape.rowMajor_val_four, Shape.rowMajor_val_three]
  show ((b.val * 256 + c.val) * 96 + n.val / 96) * 96 + n.val % 96 = (b.val * 256 + c.val) * 9216 + n.val
  omega

/-- The output array's result function at `(b, c, n)`, with its coordinates named. -/
theorem arrSpec_apply (c : Dev nD) (b : Fin 16) (ch : Fin 256) (n : Fin 9216) :
    arrSpec m c (ix3 b ch n)
      = out (fun c' k => V m c main_v0 (ix3 b c' k)) (V m c main_v1 (ix2 (0 : Fin 1) (0 : Fin 1)))
          (fun j c' => V m c main_arg2 (ix2 j c')) (fun j => V m c main_v2 (ix2 j (0 : Fin 1)))
          (fun c' t => V m c main_arg4 (ix2 c' t)) (fun c' => V m c main_v3 (ix2 c' (0 : Fin 1))) ch n := rfl

/-- THE KERNEL'S RESULT at `(b, c, h, w)`. -/
theorem kernel_result (c : Dev nD) (b : Fin 16) (ch : Fin 256) (h w : Fin 96) :
    shapeCast S16x256x96x96 (arrSpec m c) shapeCasts_S16x256x9216_S16x256x96x96 (ix4 b ch h w)
      = result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) b ch h w := by
  refine (shapeCast_apply (arrSpec m c) _ (ix4 b ch h w) (ix3 b ch ⟨96 * h.val + w.val, flat_lt h w⟩) ?_).trans ?_
  · rw [Shape.rowMajor_val_three, Shape.rowMajor_val_four]
    show (b.val * 256 + ch.val) * 9216 + (96 * h.val + w.val) = ((b.val * 256 + ch.val) * 96 + h.val) * 96 + w.val
    omega
  · rw [arrSpec_apply, V_v0, V_v1, V_v2, V_v3, V_main_arg2, V_main_arg4]
    unfold result
    simp only [shapeCast_a_a1_apply]
    exact congrArg (fun r => out r _ _ _ _ _ ch _)
      (funext fun c' => funext fun k => reshape_in (m ((c.tc : Thread nD τ).loc main_arg0)) b c' k)

end Cert.KernelIdeal.CamSe

end
-- ==== Proof.RefAttn.lean ====
/-
  The reference, stage by stage, on the extended reals — first half: the flattened input, the Gram matrix of a
  batch entry's rows, the row softmax of (row maximum − Gram matrix), and the attention-weighted rows.
-/
import proofs.«174097_j71330816852397_2_alg».proof.Proof.Gen.ReferenceIdeal.Read
import proofs.«174097_j71330816852397_2_alg».proof.Proof.Result
import Idealize.ShloMosaic.Lib.IdealHost

set_option maxRecDepth 16384

noncomputable section

namespace Cert.ReferenceIdeal.CamSe

open Idealize.ShloMosaic Idealize.ShloMosaic.ValueIdx
open Cert.ReferenceIdeal Cert.ReferenceIdeal.Gen Cert.ReferenceIdeal.Read

variable (X : (⟨S16x256x96x96, .f32⟩ : BufTy).Contents (Elt Ideal))

/-- The flattened input at `(b, c, n)`. -/
theorem v0_at (b : Fin 16) (c : Fin 256) (n : Fin 9216) :
    val_main_v0 (F := Ideal) X (ix3 b c n) = Cert.CamSe.rows X b c n := by
  rw [val_main_v0_apply]
  unfold Cert.CamSe.rows
  have hb := b.isLt; have hc := c.isLt; have hn := n.isLt
  exact congrArg X (funext fun a => Fin.ext (by
    match a with
    | ⟨0, _⟩ => show ((b.val * 256 + c.val) * 9216 + n.val) / 2359296 = b.val; omega
    | ⟨1, _⟩ => show ((b.val * 256 + c.val) * 9216 + n.val) / 9216 % 256 = c.val; omega
    | ⟨2, _⟩ => show ((b.val * 256 + c.val) * 9216 + n.val) / 96 % 96 = n.val / 96; omega
    | ⟨3, _⟩ => show ((b.val * 256 + c.val) * 9216 + n.val) % 96 = n.val % 96; omega))

/-- The Gram matrix of batch entry `b`'s rows. -/
theorem v1_at (b : Fin 16) (c d : Fin 256) :
    val_main_v1 (F := Ideal) X (ix3 b c d) = Cert.CamSe.energy (Cert.CamSe.rows X b) c d := by
  rw [val_main_v1_apply]
  unfold Cert.CamSe.energy
  refine Finset.sum_congr rfl fun k _ => ?_
  have el : lidx_main_v1 (ix3 b c d) k = ix3 b c k := (funext fun a => Fin.ext (by match a with | ⟨0, _⟩ => rfl | ⟨1, _⟩ => rfl | ⟨2, _⟩ => rfl))
  have er : ridx_main_v1 (ix3 b c d) k = ix3 b d k := (funext fun a => Fin.ext (by match a with | ⟨0, _⟩ => rfl | ⟨1, _⟩ => rfl | ⟨2, _⟩ => rfl))
  rw [el, er, v0_at, v0_at]

theorem red2 : S16x256x256.Reduces [2] S16x256 := by decide

/-- A maximum over the last axis of a [16, 256, 256] array, from −∞: a row maximum. -/
theorem hostRowMax (Y : (⟨S16x256x256, .f32⟩ : BufTy).Contents (Elt Ideal)) (init : (⟨S_, .f32⟩ : BufTy).Contents (Elt Ideal))
    (hinit : init (Shape.Idx.first h_S_) = Cert.CamSe.negInf) (b : Fin 16) (c : Fin 256) :
    Host.reduce (FloatOps.maximumf (F := Ideal) (φ := .f32)) Y init reducesTo_S16x256x256_S16x256_d2 h_S_ (ix2 b c)
      = Cert.CamSe.rowMax (fun d => Y (ix3 b c d)) := by
  rw [Host.reduce_eq_fold_single (FloatOps.maximumf (F := Ideal) (φ := .f32)) Y init reducesTo_S16x256x256_S16x256_d2 red2 h_S_ (ix2 b c), hinit]
  have e : (Y ∘ red2.lift (ix2 b c)) = fun d : Fin 256 => Y (ix3 b c d) :=
    funext fun d => congrArg Y (funext fun a => Fin.ext (by match a with | ⟨0, _⟩ => rfl | ⟨1, _⟩ => rfl | ⟨2, _⟩ => rfl))
  rw [e]; rfl

section
variable (b : Fin 16) (c : Fin 256)

/-- Row `c` of the Gram matrix of batch entry `b`. -/
abbrev erow : Fin 256 → EReal := fun d => Cert.CamSe.energy (Cert.CamSe.rows X b) c d

theorem v2_at : val_main_v2 (F := Ideal) X (ix2 b c) = Cert.CamSe.rowMax (erow X b c) := by
  unfold val_main_v2
  rw [hostRowMax _ _ rfl]
  exact congrArg Cert.CamSe.rowMax (funext fun d => v1_at X b c d)

theorem v5_at (d : Fin 256) :
    val_main_v5 (F := Ideal) X (ix3 b c d) = Cert.CamSe.rowMax (erow X b c) - erow X b c d := by
  rw [val_main_v5_apply, val_main_v4_apply, val_main_v3_apply]
  have e : idx_main_v3 (idx_main_v4 (ix3 b c d)) = ix2 b c := (funext fun a => Fin.ext (by match a with | ⟨0, _⟩ => rfl | ⟨1, _⟩ => rfl))
  rw [e, v2_at, v1_at]
  rfl

theorem v6_at : val_main_v6 (F := Ideal) X (ix2 b c)
    = Cert.CamSe.rowMax (fun d => Cert.CamSe.rowMax (erow X b c) - erow X b c d) := by
  unfold val_main_v6
  rw [hostRowMax _ _ rfl]
  exact congrArg Cert.CamSe.rowMax (funext fun d => v5_at X b c d)

theorem v12_at (d : Fin 256) :
    val_main_v12 (F := Ideal) X (ix3 b c d)
      = Ideal.exp ((Cert.CamSe.rowMax (erow X b c) - erow X b c d)
          - max Cert.CamSe.negInf (Cert.CamSe.rowMax (fun d => Cert.CamSe.rowMax (erow X b c) - erow X b c d))) := by
  rw [val_main_v12_apply, val_main_v11_apply, val_main_v10_apply, val_main_v9_apply]
  have e : idx_main_v9 (idx_main_v10 (ix3 b c d)) = ix2 b c := (funext fun a => Fin.ext (by match a with | ⟨0, _⟩ => rfl | ⟨1, _⟩ => rfl))
  rw [e, val_main_v8_apply, val_main_v7_apply, val_main_cst_1_apply, v5_at, v6_at]
  rfl

theorem v16_at (d : Fin 256) :
    val_main_v16 (F := Ideal) X (ix3 b c d) = Cert.CamSe.attn (Cert.CamSe.rows X b) c d := by
  rw [val_main_v16_apply, val_main_v15_apply, val_main_v14_apply]
  have e : idx_main_v14 (idx_main_v15 (ix3 b c d)) = ix2 b c := (funext fun a => Fin.ext (by match a with | ⟨0, _⟩ => rfl | ⟨1, _⟩ => rfl))
  rw [e, val_main_v13_apply, val_main_cst_2_apply]
  have es : ∀ k : Fin 256, idx_main_v13 (ix2 b c) k = ix3 b c k := fun k => (funext fun a => Fin.ext (by match a with | ⟨0, _⟩ => rfl | ⟨1, _⟩ => rfl | ⟨2, _⟩ => rfl))
  simp only [es, v12_at]
  unfold Cert.CamSe.attn Cert.CamSe.softmaxRow
  show Ideal.div _ (Ideal.ofBits .f32 0x00000000#32 + _) = _
  rw [Ideal.ofBits_zero_f32, zero_add]

/-- The attention-weighted rows. -/
theorem v17_at (n : Fin 9216) :
    val_main_v17 (F := Ideal) X (ix3 b c n)
      = ∑ d : Fin 256, Cert.CamSe.attn (Cert.CamSe.rows X b) c d * Cert.CamSe.rows X b d n := by
  rw [val_main_v17_apply]
  refine Finset.sum_congr rfl fun k _ => ?_
  have el : lidx_main_v17 (ix3 b c n) k = ix3 b c k := (funext fun a => Fin.ext (by match a with | ⟨0, _⟩ => rfl | ⟨1, _⟩ => rfl | ⟨2, _⟩ => rfl))
  have er : ridx_main_v17 (ix3 b c n) k = ix3 b k n := (funext fun a => Fin.ext (by match a with | ⟨0, _⟩ => rfl | ⟨1, _⟩ => rfl | ⟨2, _⟩ => rfl))
  rw [el, er, v16_at, v0_at]

/-- The same regrouped to four axes. -/
theorem v18_at (h w : Fin 96) :
    val_main_v18 (F := Ideal) X (ix4 b c h w)
      = ∑ d : Fin 256, Cert.CamSe.attn (Cert.CamSe.rows X b) c d
          * Cert.CamSe.rows X b d ⟨96 * h.val + w.val, Cert.CamSe.flat_lt h w⟩ := by
  rw [val_main_v18_apply, ← v17_at]
  have hb := b.isLt; have hc := c.isLt; have hh := h.isLt; have hw := w.isLt
  exact congrArg (val_main_v17 (F := Ideal) X) (funext fun a => Fin.ext (by
    match a with
    | ⟨0, _⟩ => show (((b.val * 256 + c.val) * 96 + h.val) * 96 + w.val) / 2359296 = b.val; omega
    | ⟨1, _⟩ => show (((b.val * 256 + c.val) * 96 + h.val) * 96 + w.val) / 9216 % 256 = c.val; omega
    | ⟨2, _⟩ => show (((b.val * 256 + c.val) * 96 + h.val) * 96 + w.val) % 9216 = 96 * h.val + w.val; omega))

end

end Cert.ReferenceIdeal.CamSe

end
-- ==== Proof.RefGate.lean ====
/-
  The reference, stage by stage, on the extended reals — second half: the mean over the two spatial axes, the gate's
  two layers, the sigmoid written out as 1 / (1 + exp(−·)), and the result.
-/
import proofs.«174097_j71330816852397_2_alg».proof.Proof.RefAttn

set_option maxRecDepth 16384

noncomputable section

namespace Cert.ReferenceIdeal.CamSe

open Idealize.ShloMosaic Idealize.ShloMosaic.ValueIdx
open Cert.ReferenceIdeal Cert.ReferenceIdeal.Gen Cert.ReferenceIdeal.Read

variable (X : (⟨S16x256x96x96, .f32⟩ : BufTy).Contents (Elt Ideal)) (g : (⟨S1, .f32⟩ : BufTy).Contents (Elt Ideal))
  (W1 : (⟨S32x256, .f32⟩ : BufTy).Contents (Elt Ideal)) (B1 : (⟨S32, .f32⟩ : BufTy).Contents (Elt Ideal))
  (W2 : (⟨S256x32, .f32⟩ : BufTy).Contents (Elt Ideal)) (B2 : (⟨S256, .f32⟩ : BufTy).Contents (Elt Ideal))
  (b : Fin 16) (c : Fin 256)

/-- The sum over both spatial axes is the row sum of the flattened rows: (h, w) ↦ 96·h + w is a bijection onto the
    columns. -/
theorem v19_at : val_main_v19 (F := Ideal) X (ix2 b c) = Cert.CamSe.rowSum (Cert.CamSe.rows X b) c := by
  unfold val_main_v19
  rw [hostReduceAdd_apply, val_main_cst_3_apply]
  unfold Ideal.hostReduceAdd Cert.CamSe.rowSum
  show Ideal.ofBits .f32 0x00000000#32 + _ = _
  rw [Ideal.ofBits_zero_f32, zero_add]
  have hd0 : ∀ i : S16x256x96x96.Idx, (reducesTo_S16x256x96x96_S16x256_d2_3.drop i 0 : ℕ) = i 0 :=
    fun i => reducesTo_S16x256x96x96_S16x256_d2_3.drop_apply_val_of_eq i 0 0
  have hd1 : ∀ i : S16x256x96x96.Idx, (reducesTo_S16x256x96x96_S16x256_d2_3.drop i 1 : ℕ) = i 1 :=
    fun i => reducesTo_S16x256x96x96_S16x256_d2_3.drop_apply_val_of_eq i 1 1
  refine Finset.sum_nbij'
    (fun i : S16x256x96x96.Idx => (⟨96 * (i 2).val + (i 3).val, by
      have h2 : (i 2).val < 96 := (i 2).isLt; have h3 : (i 3).val < 96 := (i 3).isLt; omega⟩ : Fin 9216))
    (fun n : Fin 9216 => ix4 b c ⟨n.val / 96, Cert.CamSe.div96_lt n⟩ ⟨n.val % 96, Cert.CamSe.mod96_lt n⟩)
    (fun _ _ => Finset.mem_univ _) (fun n _ => ?_) (fun i hi => ?_) (fun n _ => ?_) (fun i hi => ?_)
  · rw [Finset.mem_filter]
    refine ⟨Finset.mem_univ _, funext fun a => Fin.ext ?_⟩
    match a with
    | ⟨0, _⟩ => exact hd0 _
    | ⟨1, _⟩ => exact hd1 _
  · have hm := (Finset.mem_filter.mp hi).2
    have e0 : (i 0).val = b.val := (hd0 i).symm.trans (congrArg (fun j : S16x256.Idx => (j 0).val) hm)
    have e1 : (i 1).val = c.val := (hd1 i).symm.trans (congrArg (fun j : S16x256.Idx => (j 1).val) hm)
    have h2 : (i 2).val < 96 := (i 2).isLt
    have h3 : (i 3).val < 96 := (i 3).isLt
    refine funext fun a => Fin.ext ?_
    match a with
    | ⟨0, _⟩ => exact e0.symm
    | ⟨1, _⟩ => exact e1.symm
    | ⟨2, _⟩ => show (96 * (i 2).val + (i 3).val) / 96 = (i 2).val; omega
    | ⟨3, _⟩ => show (96 * (i 2).val + (i 3).val) % 96 = (i 3).val; omega
  · refine Fin.ext ?_
    show 96 * (n.val / 96) + n.val % 96 = n.val
    omega
  · have hm := (Finset.mem_filter.mp hi).2
    have e0 : (i 0).val = b.val := (hd0 i).symm.trans (congrArg (fun j : S16x256.Idx => (j 0).val) hm)
    have e1 : (i 1).val = c.val := (hd1 i).symm.trans (congrArg (fun j : S16x256.Idx => (j 1).val) hm)
    have h2 : (i 2).val < 96 := (i 2).isLt
    have h3 : (i 3).val < 96 := (i 3).isLt
    unfold Cert.CamSe.rows
    refine congrArg X (funext fun a => Fin.ext ?_)
    match a with
    | ⟨0, _⟩ => exact e0
    | ⟨1, _⟩ => exact e1
    | ⟨2, _⟩ => show (i 2).val = (96 * (i 2).val + (i 3).val) / 96; omega
    | ⟨3, _⟩ => show (i 3).val = (96 * (i 2).val + (i 3).val) % 96; omega

/-- The mean: the row sum times 1/9216. -/
theorem v21_at : val_main_v21 (F := Ideal) X (ix2 b c)
    = Cert.CamSe.rowSum (Cert.CamSe.rows X b) c * ((1 / 9216 : ℝ) : EReal) := by
  rw [val_main_v21_apply, val_main_v20_apply, val_main_cst_4_apply, v19_at]
  exact Cert.CamSe.div_9216 _

/-- The gate's hidden layer. -/
theorem v27_at (j : Fin 32) : val_main_v27 (F := Ideal) X W1 B1 (ix2 b j)
    = Cert.CamSe.hidden (fun j c => W1 (ix2 j c)) (fun j => B1 (ix1 j)) (Cert.CamSe.rowSum (Cert.CamSe.rows X b)) j := by
  rw [val_main_v27_apply, val_main_v26_apply, val_main_v23_apply, val_main_v25_apply, val_main_v24_apply,
    val_main_call0_v0_apply, val_main_call0_cst_apply]
  have eb : idx_main_v24 (idx_main_v25 (ix2 b j)) = ix1 j := (funext fun a => Fin.ext (by match a with | ⟨0, _⟩ => rfl))
  rw [eb]
  unfold Cert.CamSe.hidden
  have es : ∀ k : Fin 256, val_main_v21 (F := Ideal) X (lidx_main_v23 (ix2 b j) k) * val_main_v22 (F := Ideal) W1 (ridx_main_v23 (ix2 b j) k)
      = W1 (ix2 j k) * (Cert.CamSe.rowSum (Cert.CamSe.rows X b) k * ((1 / 9216 : ℝ) : EReal)) := fun k => by
    have el : lidx_main_v23 (ix2 b j) k = ix2 b k := (funext fun a => Fin.ext (by match a with | ⟨0, _⟩ => rfl | ⟨1, _⟩ => rfl))
    have er : idx_main_v22 (ridx_main_v23 (ix2 b j) k) = ix2 j k := (funext fun a => Fin.ext (by match a with | ⟨0, _⟩ => rfl | ⟨1, _⟩ => rfl))
    rw [el, v21_at, val_main_v22_apply, er]
    exact mul_comm _ _
  simp only [es]
  show max (_ + B1 (ix1 j)) (Ideal.ofBits .f32 0x00000000#32) = _
  rw [Ideal.ofBits_zero_f32]

/-- The gate. -/
theorem v38_at : val_main_v38 (F := Ideal) X W1 B1 W2 B2 (ix2 b c)
    = Cert.CamSe.gate (fun c t => W2 (ix2 c t)) (fun c => B2 (ix1 c))
        (Cert.CamSe.hidden (fun j c => W1 (ix2 j c)) (fun j => B1 (ix1 j)) (Cert.CamSe.rowSum (Cert.CamSe.rows X b))) c := by
  rw [val_main_v38_apply, val_main_v37_apply, val_main_cst_6_apply, val_main_v36_apply, val_main_v35_apply, val_main_cst_5_apply,
    val_main_v34_apply, val_main_v33_apply, val_main_v32_apply, val_main_v29_apply, val_main_v31_apply, val_main_v30_apply]
  have eb : idx_main_v30 (idx_main_v31 (ix2 b c)) = ix1 c := (funext fun a => Fin.ext (by match a with | ⟨0, _⟩ => rfl))
  rw [eb]
  have es : ∀ k : Fin 32, val_main_v27 (F := Ideal) X W1 B1 (lidx_main_v29 (ix2 b c) k) * val_main_v28 (F := Ideal) W2 (ridx_main_v29 (ix2 b c) k)
      = W2 (ix2 c k) * Cert.CamSe.hidden (fun j c => W1 (ix2 j c)) (fun j => B1 (ix1 j)) (Cert.CamSe.rowSum (Cert.CamSe.rows X b)) k := fun k => by
    have el : lidx_main_v29 (ix2 b c) k = ix2 b k := (funext fun a => Fin.ext (by match a with | ⟨0, _⟩ => rfl | ⟨1, _⟩ => rfl))
    have er : idx_main_v28 (ridx_main_v29 (ix2 b c) k) = ix2 c k := (funext fun a => Fin.ext (by match a with | ⟨0, _⟩ => rfl | ⟨1, _⟩ => rfl))
    rw [el, v27_at, val_main_v28_apply, er]
    exact mul_comm _ _
  simp only [es]
  unfold Cert.CamSe.gate Ideal.logistic
  show Ideal.div (Ideal.ofBits .f32 0x3F800000#32) (Ideal.ofBits .f32 0x3F800000#32 + Ideal.exp (-(_ + B2 (ix1 c)))) = _
  rw [Ideal.ofBits_one_f32]

/-- THE REFERENCE'S RESULT at `(b, c, h, w)`. -/
theorem ref_result (h w : Fin 96) :
    val_main_v45 (F := Ideal) X g W1 B1 W2 B2 (ix4 b c h w) = Cert.CamSe.result X g W1 B1 W2 B2 b c h w := by
  rw [val_main_v45_apply, val_main_v44_apply, val_main_v43_apply, val_main_v42_apply, val_main_v41_apply, v18_at,
    val_main_v40_apply, val_main_v39_apply]
  have eg : idx_main_v42 (idx_main_v43 (ix4 b c h w)) = ix1 (0 : Fin 1) := (funext fun a => Fin.ext (by match a with | ⟨0, _⟩ => rfl))
  have ec : idx_main_v39 (idx_main_v40 (ix4 b c h w)) = ix2 b c := (funext fun a => Fin.ext (by match a with | ⟨0, _⟩ => rfl | ⟨1, _⟩ => rfl))
  rw [eg, ec, v38_at]
  unfold Cert.CamSe.result Cert.CamSe.out
  have hh := h.isLt; have hw := w.isLt
  have ex : X (ix4 b c h w) = Cert.CamSe.rows X b c ⟨96 * h.val + w.val, Cert.CamSe.flat_lt h w⟩ := by
    unfold Cert.CamSe.rows
    exact congrArg X (funext fun a => Fin.ext (by
      match a with
      | ⟨0, _⟩ => rfl
      | ⟨1, _⟩ => rfl
      | ⟨2, _⟩ => show h.val = (96 * h.val + w.val) / 96; omega
      | ⟨3, _⟩ => show w.val = (96 * h.val + w.val) % 96; omega))
  rw [ex]
  rfl

end Cert.ReferenceIdeal.CamSe

end
-- ==== Proof.lean ====
/-
  Channel self-attention with a squeeze-and-excitation gate, per batch entry b over the flattened
  spatial axis n < 9216:
    E[c,d]  = Σ_n x[c,n]·x[d,n],   A = softmax_d (max_d E[c,d] − E[c,d]),
    p[c]    = (Σ_n x[c,n]) / 9216,  h = max(w1·p + b1, 0),  s = 1 / (1 + exp(−(w2·h + b2))),
    out[c,n] = γ·((Σ_d A[c,d]·x[d,n])·s[c]) + x[c,n].
  The kernel takes E and Σ_n x in nine chunks of 1024 columns and multiplies by the named 1/9216; the reference sums
  once and divides by 9216. On the extended reals the two are one function: a finite sum may be taken chunk by chunk
  (addition is commutative and associative), multiplication commutes, and division by 9216 is multiplication by
  1/9216 on every extended real. No finiteness of the inputs is used.
-/
import proofs.«174097_j71330816852397_2_alg».proof.Defs
import proofs.«174097_j71330816852397_2_alg».proof.Proof.Gen.Kernel
import proofs.«174097_j71330816852397_2_alg».proof.Proof.Gen.Kernel.Skeleton
import proofs.«174097_j71330816852397_2_alg».proof.Proof.Gen.Kernel.Loops
import proofs.«174097_j71330816852397_2_alg».proof.Proof.Gen.Kernel.Launch
import proofs.«174097_j71330816852397_2_alg».proof.Proof.Gen.Kernel.Points
import proofs.«174097_j71330816852397_2_alg».proof.Proof.Gen.Kernel.Frame
import proofs.«174097_j71330816852397_2_alg».proof.Proof.Gen.KernelIdeal
import proofs.«174097_j71330816852397_2_alg».proof.Proof.Gen.KernelIdeal.Skeleton
import proofs.«174097_j71330816852397_2_alg».proof.Proof.Gen.KernelIdeal.Loops
import proofs.«174097_j71330816852397_2_alg».proof.Proof.Gen.KernelIdeal.Launch
import proofs.«174097_j71330816852397_2_alg».proof.Proof.Gen.KernelIdeal.Points
import proofs.«174097_j71330816852397_2_alg».proof.Proof.Gen.KernelIdeal.Frame
import proofs.«174097_j71330816852397_2_alg».proof.Proof.Gen.ReferenceIdeal
import proofs.«174097_j71330816852397_2_alg».proof.Proof.Gen.ReferenceIdeal.Run
import proofs.«174097_j71330816852397_2_alg».proof.Proof.Gen.ReferenceIdeal.Read
import proofs.«174097_j71330816852397_2_alg».proof.Proof.Gen.Pre_finite_inputs
import proofs.«174097_j71330816852397_2_alg».proof.Proof.KernelResult
import proofs.«174097_j71330816852397_2_alg».proof.Proof.RefGate
import Idealize.ShloMosaic.Adequacy
import Idealize.ShloMosaic.Init

noncomputable section

namespace Cert.Proof

open Idealize.ShloMosaic Idealize.ShloMosaic.ValueIdx Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The one rewrite of the idealization: the constant 0x38E38E39 is read as the rational 1/9216. -/
theorem preserves : Cert.preserves_Kernel_KernelIdeal :=
  IdealRules.named_const.statement Cert.KernelIdeal.κ "inv_9216" .f32 0x38E38E39#32 ((1 / 9216 : ℝ) : EReal) rfl

/-- Both idealized programs, from memories agreeing on the arguments, end with the result function of the argument
    arrays: the kernel's output array regrouped to four axes, and the reference's last stage, index by index. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => shapeCast Cert.KernelIdeal.S16x256x96x96 (Cert.KernelIdeal.CamSe.arrSpec m c)
      Cert.KernelIdeal.Gen.shapeCasts_S16x256x9216_S16x256x96x96, Cert.KernelIdeal.CamSe.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq, (hagree c).1, (hagree c).2.1, (hagree c).2.2.1, (hagree c).2.2.2.1,
    (hagree c).2.2.2.2.1, (hagree c).2.2.2.2.2]
  funext i
  obtain ⟨b, ch, h, w, rfl⟩ : ∃ (b : Fin 16) (ch : Fin 256) (h w : Fin 96), i = ix4 b ch h w := ⟨i 0, i 1, i 2, i 3, eq_ix4 i⟩
  exact (Cert.ReferenceIdeal.CamSe.ref_result _ _ _ _ _ _ b ch h w).trans (Cert.KernelIdeal.CamSe.kernel_result m c b ch h w).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
